-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S32x1x256 : Shape := ⟨3, ![32, 1, 256]⟩
abbrev S256x256 : Shape := ⟨2, ![256, 256]⟩
abbrev S256x1 : Shape := ⟨2, ![256, 1]⟩
abbrev S1x1x256 : Shape := ⟨3, ![1, 1, 256]⟩
abbrev S256x8192 : Shape := ⟨2, ![256, 8192]⟩
abbrev S256 : Shape := ⟨1, ![256]⟩
abbrev S1x256 : Shape := ⟨2, ![1, 256]⟩

abbrev nBuf : Space → Nat
  | .hbm => 27
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x1, .i32⟩
  | .hbm, ⟨13, _⟩ => ⟨S1x8192, .i32⟩
  | .hbm, ⟨14, _⟩ => ⟨S32x1x256, .f32⟩
  | .hbm, ⟨15, _⟩ => ⟨S32x1x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  shapeCasts_S8192_S8192x1 : S8192.ShapeCasts S8192x1
  shapeCasts_S8192_S1x8192 : S8192.ShapeCasts S1x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  natLt_1_32 : 1 < 32
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S32x1x256_S_d0_1_2 : S32x1x256.ReducesTo [0, 1, 2] S_
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x256.size a
  hwx0_4 : ∀ i : grid0.Coords, EltTy.bits .f32 = 32 ∨ (Rect.block (s := S32x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S32x1x256.size a
  hwx0_5 : ∀ i : grid0.Coords, EltTy.bits .f32 = 32 ∨ (Rect.block (s := S32x1x256) S1x1x256.size (cc0_transform_5 i) (hinb0_5 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v7) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .i1⟩
  | .hbm, ⟨57, _⟩ => ⟨S8192x8192, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_call2_cst : Ref sig .tc := ⟨.hbm, 47, rfl⟩
abbrev main_call2_v0 : Ref sig .tc := ⟨.hbm, 48, rfl⟩
abbrev main_v33 : Ref sig .tc := ⟨.hbm, 49, rfl⟩
abbrev main_cst_6 : Ref sig .tc := ⟨.hbm, 50, rfl⟩
abbrev main_call3_v0 : Ref sig .tc := ⟨.hbm, 51, rfl⟩
abbrev main_call3_v1 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_call4_v0 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  natLt_1_32 : 1 < 32
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BBody.lean ====
/-
  The kernel body of the row-tiled triplet loss run once on whole staging buffers: from the four input
  buffers at read contents x0 (a tile of 256 rows), x1 (all rows), x2 (the tile's labels), x3 (all labels)
  and the two output buffers at anything, the body runs to its end leaving the inputs as they were and each
  output buffer at its single covering store: the row sums, and the row counts, of the tile.
-/
import proofs.«140858_j40114994544729_2_alg».proof.Proof.Gen.Kernel.Launch
import proofs.«140858_j40114994544729_2_alg».proof.Proof.Gen.Kernel.Skeleton
import proofs.«140858_j40114994544729_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rA : Rect S256x256 := Rect.unit (s := S256x256) ![0, 0] S256x256.size inb_S256x256_S256x256_0_0
abbrev rB : Rect S8192x256 := Rect.unit (s := S8192x256) ![0, 0] S8192x256.size inb_S8192x256_S8192x256_0_0
abbrev rC : Rect S256x1 := Rect.unit (s := S256x1) ![0, 0] S256x1.size inb_S256x1_S256x1_0_0
abbrev rD : Rect S1x8192 := Rect.unit (s := S1x8192) ![0, 0] S1x8192.size inb_S1x8192_S1x8192_0_0
abbrev rO : Rect S1x1x256 := Rect.unit (s := S1x1x256) ![0, 0, 0] S1x1x256.size inb_S1x1x256_S1x1x256_0_0_0

/-- The row sums of the tile, as the one store into the first output buffer leaves them. -/
def outSum (i : grid0.Coords) (x0 : Vec F S256x256 .f32) (x1 : Vec F S8192x256 .f32) (x2 : Vec F S256x1 .i32) (x3 : Vec F S1x8192 .i32) : Vec F S1x1x256 .f32 :=
  View.canon [⟨rO, k0_pay1 (k0_pay4 i (View.ld x0 rA) (View.ld x1 rB) (View.ld x2 rC) (View.ld x3 rD))⟩]

/-- The row counts of the tile, as the one store into the second output buffer leaves them. -/
def outCnt (i : grid0.Coords) (x0 : Vec F S256x256 .f32) (x1 : Vec F S8192x256 .f32) (x2 : Vec F S256x1 .i32) (x3 : Vec F S1x8192 .i32) : Vec F S1x1x256 .f32 :=
  View.canon [⟨rO, k0_pay2 (k0_pay3 i (View.ld x0 rA) (View.ld x1 rB) (View.ld x2 rC) (View.ld x3 rD))⟩]

/-- The one store covers the output buffer. -/
theorem coverO (p0 : Vec F S1x1x256 .f32) (y : S1x1x256.Idx) :
    ∃ pc ∈ ([⟨rO, p0⟩] : List (View.Piece (Elt F) S1x1x256 .f32)), y ∈ pc.1.set :=
  View.cover_of_tiled [⟨rO, p0⟩] S1x1x256.size (by rfl) y

set_option maxHeartbeats 4000000 in
/-- The body's triple. -/
theorem sound_kernel (c : Dev nD) (E : Set ℕ) (i : grid0.Coords)
    (arg1 : Memref sig .tc .vmem S256x256 .f32) (harg1 : arg1.IsWhole) (arg2 : Memref sig .tc .vmem S8192x256 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S1x1x256 .f32) (harg5 : arg5.IsWhole) (arg6 : Memref sig .tc .vmem S1x1x256 .f32) (harg6 : arg6.IsWhole)
    (x0 : Vec F S256x256 .f32) (x1 : Vec F S8192x256 .f32) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outSum i x0 x1 x2 x3) ∗ owns (c : Thread nD τ) arg6 fullShare (outCnt i x0 x1 x2 x3)) -∗ K ⟨⟩))
      ⊢ wp frame (wpE (defs₀ (F := F)) Variants.none c none) E (cc0__triplet_kernel i arg1 harg1 arg2 harg2 arg3 harg3 arg4 harg4 arg5 harg5 arg6 harg6) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverO _)
  iexists _; isplitr
  swap; · iexact H5
  ipureintro
  try dsimp only
  exact View.read_writes_eq_canon _ _ _ (coverO _)

end Cert.Kernel.Fr

end
-- ==== Proof.BDat.lean ====
/-
  The proof data of the one kernel region, for a valuation V of the buffers at the region's entry: the four
  input windows find their blocks of the arrays (the tile of rows and the tile of labels move with the grid
  point; the whole matrix of rows and the whole label vector are fetched once and stay), the two output
  windows are left at the tile's row sums and row counts. The matrix of normalised rows is read by TWO
  windows (its 256-row tile and the whole of it): each holds one half of the array's share.
-/
import proofs.«140858_j40114994544729_2_alg».proof.Proof.BBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outSum (grid0.coords t) (iblk V c 0 t) (iblk V c 1 t) (iblk V c 2 t) (iblk V c 3 t)
    | ⟨5, _⟩ => outCnt (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outSum (grid0.coords t) (iblk V c 0 t) (iblk V c 1 t) (iblk V c 2 t) (iblk V c 3 t) := by dsimp only [dat]
theorem after_5 (c : Dev nD) (t : Fin cfg0.N) : (dat V c).after 5 t = outCnt (grid0.coords t) (iblk V c 0 t) (iblk V c 1 t) (iblk V c 2 t) (iblk V c 3 t) := by dsimp only [dat]

/-- Each input window's current buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Fr

end
-- ==== Proof.BArrays.lean ====
/-
  The arrays of the kernel region against the core's unscoped buffers. The matrix of normalised rows is one
  buffer behind two windows: entering the region its full share is cut into the two halves the windows hold,
  leaving it the halves are joined again (an input array is never written, so both halves hold the entry
  contents). The other arrays are distinct buffers held whole.
-/
import proofs.«140858_j40114994544729_2_alg».proof.Proof.BDat
import Idealize.ShloMosaic.Lib.Pipeline.Frame
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the two halves of the rows' buffer, then four whole buffers. -/
theorem arrays_chain (c : Dev nD) (Fa : (w : Fin cfg0.W) → Buf (Elt F) ((cfg0.win w).arr.view.loc (c : Thread nD τ))) :
    ((dat V c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2) ∗ (((c : Thread nD τ).loc main_v9) ↦{fullShare} Fa 3)
          ∗ (((c : Thread nD τ).loc main_v10_0) ↦{fullShare} Fa 4) ∗ (((c : Thread nD τ).loc main_v10_1) ↦{fullShare} Fa 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- The buffers behind the arrays, one by one. -/
theorem arrBufs_chain (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v7) ↦{fullShare} Vc main_v7) ∗ (((c : Thread nD τ).loc main_v8) ↦{fullShare} Vc main_v8)
          ∗ (((c : Thread nD τ).loc main_v9) ↦{fullShare} Vc main_v9) ∗ (((c : Thread nD τ).loc main_v10_0) ↦{fullShare} Vc main_v10_0)
          ∗ (((c : Thread nD τ).loc main_v10_1) ↦{fullShare} Vc main_v10_1)) := by
  unfold Pipeline.arrBufs
  rw [bigSep_eq_bigSepL_of_eq [main_v7, main_v8, main_v9, main_v10_0, main_v10_1] (by decide) (by decide)]
  rfl

/-- ENTRY: the buffers behind the arrays, whole at the entry contents, are the region's arrays at entry. -/
theorem arr_split (c : Dev nD) :
    (Pipeline.arrBufs (Ix := Unit) (Name := ℕ) (U := UR sig nD τ) (Lvl := ℕ) spec0 c (V c) : sProp 𝕄) ⊢ (dat V c).arrays ((dat V c).arrAt · 0) := by
  rw [arrBufs_chain, arrays_chain]
  iintro ⟨H7, H8, H9, H0, H1⟩
  ihave H7' := (pointsTo_share (PosShare.mem_left_op_right fullShare)).1 $$ H7
  icases H7' with ⟨H7l, H7r⟩
  isplitl [H7l]; · iexact H7l
  isplitl [H7r]; · iexact H7r
  isplitl [H8]; · iexact H8
  isplitl [H9]; · iexact H9
  isplitl [H0]; · iexact H0
  iexact H1

/-- EXIT: the region's arrays at their final contents are the buffers behind them, whole, at any valuation that has
    the inputs' buffers at the entry contents and the two results' at what the write-backs left. -/
theorem arr_join (c : Dev nD) (Vc : (b : Ref sig .tc) → Buf (Elt F) ((c : Thread nD τ).loc b))
    (h7 : Vc main_v7 = V c main_v7) (h8 : Vc main_v8 = V c main_v8) (h9 : Vc main_v9 = V c main_v9)
    (h0 : Vc main_v10_0 = (dat V c).arrAt 4 cfg0.N) (h1 : Vc main_v10_1 = (dat V c).arrAt 5 cfg0.N) :
    ((dat V c).arrays ((dat V c).arrAt · cfg0.N) : sProp 𝕄) ⊢ Pipeline.arrBufs (Ix := Unit) (Name := ℕ) (U := UR sig nD τ) (Lvl := ℕ) spec0 c Vc := by
  rw [arrBufs_chain, arrays_chain, h7, h8, h9, h0, h1,
    (dat V c).arrAt_in 0 rfl cfg0.N, (dat V c).arrAt_in 1 rfl cfg0.N, (dat V c).arrAt_in 2 rfl cfg0.N, (dat V c).arrAt_in 3 rfl cfg0.N]
  iintro ⟨H7l, H7r, H8, H9, H0, H1⟩
  isplitl [H7l H7r]
  · iapply (pointsTo_share (PosShare.mem_left_op_right fullShare)).2
    isplitl [H7l]; · iexact H7l
    iexact H7r
  isplitl [H8]; · iexact H8
  isplitl [H9]; · iexact H9
  isplitl [H0]; · iexact H0
  iexact H1

end Cert.Kernel.Fr

end
-- ==== Proof.BRegion.lean ====
/-
  The run of the whole program: the host operations that normalise the rows and lay out the labels, the one
  kernel region, the host operations that add up the two result arrays and form the mean. Between two items the
  core holds every unscoped buffer whole at a known valuation: the launch contents, then each stretch's fold, the
  region leaving the two result arrays at what its write-backs made of them and every other buffer as entered.
-/
import proofs.«140858_j40114994544729_2_alg».proof.Proof.BArrays

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the host operations before the region. -/
abbrev W1 : Dev nD → Valuation τ sig (Elt F) := fun c => StableHlo.after hostOps0 (W0 m c)
/-- The same read at the TensorCore's references: what the region's proof data take. -/
abbrev V1 : (c : Dev nD) → (b : Ref sig .tc) → Buf (Elt F) ((c : Thread nD τ).loc b) := fun c b => W1 m c b
/-- At the region's exit: the two result arrays at what the write-backs left, every other buffer as entered. -/
def W2 (c : Dev nD) : Valuation τ sig (Elt F) :=
  Function.update (Function.update (W1 m c) main_v10_0 ((dat (V1 m) c).arrAt 4 cfg0.N)) main_v10_1 ((dat (V1 m) c).arrAt 5 cfg0.N)
abbrev V2 : (c : Dev nD) → (b : Ref sig .tc) → Buf (Elt F) ((c : Thread nD τ).loc b) := fun c b => W2 m c b
/-- After the host operations that follow the region, and after the outlined select. -/
abbrev W3 : Dev nD → Valuation τ sig (Elt F) := fun c => StableHlo.after hostOps1 (W2 m c)
abbrev W4 : Dev nD → Valuation τ sig (Elt F) := fun c => StableHlo.after hostOps1_1 (W3 m c)

theorem W2_sum (c : Dev nD) : W2 m c main_v10_0 = (dat (V1 m) c).arrAt 4 cfg0.N := by
  unfold W2
  rw [Function.update_of_ne (StableHlo.devRef_ne_of_ne (by decide) : (Proc.devRef .tc main_v10_0 : DevRef τ sig) ≠ Proc.devRef .tc main_v10_1), Function.update_self]
theorem W2_cnt (c : Dev nD) : W2 m c main_v10_1 = (dat (V1 m) c).arrAt 5 cfg0.N := by
  unfold W2; rw [Function.update_self]
theorem W2_of_ne (c : Dev nD) (b : Ref sig .tc) (h0 : b ≠ main_v10_0) (h1 : b ≠ main_v10_1) : W2 m c b = W1 m c b := by
  unfold W2
  rw [Function.update_of_ne (StableHlo.devRef_ne_of_ne h1 : (Proc.devRef .tc b : DevRef τ sig) ≠ Proc.devRef .tc main_v10_1),
    Function.update_of_ne (StableHlo.devRef_ne_of_ne h0 : (Proc.devRef .tc b : DevRef τ sig) ≠ Proc.devRef .tc main_v10_0)]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers no window reads or writes hold at the region's exit what they held at its entry. -/
theorem rest_eq (c : Dev nD) :
    (Pipeline.unscopedRest (Ix := Unit) (Name := ℕ) (U := UR sig nD τ) (Lvl := ℕ) spec0 c (V2 m c) : sProp 𝕄)
      = Pipeline.unscopedRest (Ix := Unit) (Name := ℕ) (U := UR sig nD τ) (Lvl := ℕ) spec0 c (V1 m c) := by
  unfold Pipeline.unscopedRest
  exact bigSep_congr fun b hb => by
    have hb' := (Finset.mem_sdiff.mp hb).2
    rw [show V2 m c b = V1 m c b from W2_of_ne m c b
      (fun e => hb' (Finset.mem_image.mpr ⟨4, Finset.mem_univ _, e.symm⟩)) (fun e => hb' (Finset.mem_image.mpr ⟨5, Finset.mem_univ _, e.symm⟩))]

set_option backward.isDefEq.respectTransparency.types false in
/-- The kernel region over the thread state: entered from every unscoped buffer at W1, left at W2. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none, ← Pipeline.unscopedBufs_held c (W1 m c), Pipeline.unscopedBufs_split₀ cfgs 0 winFacts₀0.arr_unscoped c (V1 m c)]
    have hs : (Pipeline.arrBufs (Ix := Unit) (Name := ℕ) (U := UR sig nD τ) (Lvl := ℕ) spec0 c (V1 m c) : sProp 𝕄)
        ⊢ (pdats m 0 c).arrays ((pdats m 0 c).arrAt · 0) := arr_split (V1 m) c
    iintro ⟨⟨⟨Hab, Hrest⟩, Hp, HO⟩, -, -⟩
    ihave Ha := hs $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [← Pipeline.unscopedBufs_held c (W2 m c), Pipeline.unscopedBufs_split₀ cfgs 0 winFacts₀0.arr_unscoped c (V2 m c), rest_eq]
    have hj : ((pdats m 0 c).arrays ((pdats m 0 c).arrAt · (Pipeline.pin (pcfgs (F := F)) adm 0).N) : sProp 𝕄)
        ⊢ Pipeline.arrBufs (Ix := Unit) (Name := ℕ) (U := UR sig nD τ) (Lvl := ℕ) spec0 c (V2 m c) :=
      arr_join (V1 m) c (V2 m c) (W2_of_ne m c main_v7 (by decide) (by decide)) (W2_of_ne m c main_v8 (by decide) (by decide))
        (W2_of_ne m c main_v9 (by decide) (by decide)) (W2_sum m c) (W2_cnt m c)
    iintro ⟨Ha, HO, HY, Hrest⟩
    ihave Hab := hj $$ Ha
    imodintro
    isplitl [Hab Hrest]
    · isplitl [Hab]; · iexact Hab
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)) ]
theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W4 m c) ∗ ∃ r, prngReg c r)

set_option backward.isDefEq.respectTransparency.types false in
/-- THE RUN: from any memory with zero counters every weakly fair execution of @main terminates, and every final state
    has every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Fr

end
-- ==== Proof.BFrame.lean ====
/-
  What the run leaves in the argument arrays and the result: no host operation and no write-back of the region
  touches an argument, so both arguments end as launched; the result buffer ends at the fold of the host
  operations over the valuation the region leaves.
-/
import proofs.«140858_j40114994544729_2_alg».proof.Proof.BRegion

set_option maxRecDepth 16384

noncomputable section

namespace Cert.Kernel.Fr

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem hostOps0_keeps (b : Ref sig .tc) (hb : b ∉ ([main_v0, main_cst, main_v1, main_v2, main_v3, main_cst_0, main_v4, main_v5, main_v6, main_v7, main_v8, main_v9] : List (Ref sig .tc)))
    (W : Valuation τ sig (Elt F)) : StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.reshape_writes, Finset.mem_singleton]
    simp only [List.mem_cons, List.mem_nil_iff, or_false, not_or] at hb
    obtain ⟨h0, h1, h2, h3, h4, h5, h6, h7, h8, h9, h10, h11⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5,
      StableHlo.devRef_ne_of_ne h6, StableHlo.devRef_ne_of_ne h7, StableHlo.devRef_ne_of_ne h8, StableHlo.devRef_ne_of_ne h9, StableHlo.devRef_ne_of_ne h10, StableHlo.devRef_ne_of_ne h11⟩))

theorem hostOps1_keeps (b : Ref sig .tc) (hb : b ∉ ([main_cst_1, main_v11, main_cst_2, main_v12, main_cst_3, main_v13, main_cst_4, main_v14, main_v15, main_cst_5] : List (Ref sig .tc)))
    (W : Valuation τ sig (Elt F)) : StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.reshape_writes, Finset.mem_singleton]
    simp only [List.mem_cons, List.mem_nil_iff, or_false, not_or] at hb
    obtain ⟨h0, h1, h2, h3, h4, h5, h6, h7, h8, h9⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5,
      StableHlo.devRef_ne_of_ne h6, StableHlo.devRef_ne_of_ne h7, StableHlo.devRef_ne_of_ne h8, StableHlo.devRef_ne_of_ne h9⟩))

theorem hostOps1_1_keeps (b : Ref sig .tc) (hb : b ≠ main_v16)
    (W : Valuation τ sig (Elt F)) : StableHlo.after hostOps1_1 W (Proc.devRef .tc b) = W (Proc.devRef .tc b) :=
  StableHlo.after_of_forall_not_mem (b := Proc.devRef .tc b) _ _ (List.forall_iff_forall_mem.mp (by
    simp only [hostOps1_1, List.Forall, StableHlo.TRef.ternary, StableHlo.ternary_writes, Finset.mem_singleton]
    exact StableHlo.devRef_ne_of_ne hb))

/-- The arguments end as launched. -/
theorem W4_arg0 (c : Dev nD) : W4 m c main_arg0 = m ((c : Thread nD τ).loc main_arg0) :=
  (hostOps1_1_keeps main_arg0 (by decide) _).trans <| (hostOps1_keeps main_arg0 (by decide) _).trans <|
    (W2_of_ne m c main_arg0 (by decide) (by decide)).trans <| (hostOps0_keeps main_arg0 (by decide) _).trans rfl
theorem W4_arg1 (c : Dev nD) : W4 m c main_arg1 = m ((c : Thread nD τ).loc main_arg1) :=
  (hostOps1_1_keeps main_arg1 (by decide) _).trans <| (hostOps1_keeps main_arg1 (by decide) _).trans <|
    (W2_of_ne m c main_arg1 (by decide) (by decide)).trans <| (hostOps0_keeps main_arg1 (by decide) _).trans rfl

/-- THE RUN, READ: the result buffer at the last valuation, both arguments as launched. -/
theorem run : θ_run defs (onTc (τ := τ) (main (F := F))) ⟨m, fun _ => 0, ρ⟩ (fun r => ∀ c : Dev nD,
      r.2.mem ((c.tc : Thread nD τ).loc main_v16) = W4 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_uc main_v16 (by decide)),
      (h c _ (mem_uc main_arg0 (by decide))).trans (W4_arg0 m c),
      (h c _ (mem_uc main_arg1 (by decide))).trans (W4_arg1 m c)⟩) (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run m ρ)

end Cert.Kernel.Fr

end
-- ==== Proof.KBody.lean ====
/-
  The kernel body of the row-tiled triplet loss run once on whole staging buffers: from the four input
  buffers at read contents x0 (a tile of 256 rows), x1 (all rows), x2 (the tile's labels), x3 (all labels)
  and the two output buffers at anything, the body runs to its end leaving the inputs as they were and each
  output buffer at its single covering store: the row sums, and the row counts, of the tile.
-/
import proofs.«140858_j40114994544729_2_alg».proof.Proof.Gen.KernelIdeal.Launch
import proofs.«140858_j40114994544729_2_alg».proof.Proof.Gen.KernelIdeal.Skeleton
import proofs.«140858_j40114994544729_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rA : Rect S256x256 := Rect.unit (s := S256x256) ![0, 0] S256x256.size inb_S256x256_S256x256_0_0
abbrev rB : Rect S8192x256 := Rect.unit (s := S8192x256) ![0, 0] S8192x256.size inb_S8192x256_S8192x256_0_0
abbrev rC : Rect S256x1 := Rect.unit (s := S256x1) ![0, 0] S256x1.size inb_S256x1_S256x1_0_0
abbrev rD : Rect S1x8192 := Rect.unit (s := S1x8192) ![0, 0] S1x8192.size inb_S1x8192_S1x8192_0_0
abbrev rO : Rect S1x1x256 := Rect.unit (s := S1x1x256) ![0, 0, 0] S1x1x256.size inb_S1x1x256_S1x1x256_0_0_0

/-- The row sums of the tile, as the one store into the first output buffer leaves them. -/
def outSum (i : grid0.Coords) (x0 : Vec F S256x256 .f32) (x1 : Vec F S8192x256 .f32) (x2 : Vec F S256x1 .i32) (x3 : Vec F S1x8192 .i32) : Vec F S1x1x256 .f32 :=
  View.canon [⟨rO, k0_pay1 (k0_pay4 i (View.ld x0 rA) (View.ld x1 rB) (View.ld x2 rC) (View.ld x3 rD))⟩]

/-- The row counts of the tile, as the one store into the second output buffer leaves them. -/
def outCnt (i : grid0.Coords) (x0 : Vec F S256x256 .f32) (x1 : Vec F S8192x256 .f32) (x2 : Vec F S256x1 .i32) (x3 : Vec F S1x8192 .i32) : Vec F S1x1x256 .f32 :=
  View.canon [⟨rO, k0_pay2 (k0_pay3 i (View.ld x0 rA) (View.ld x1 rB) (View.ld x2 rC) (View.ld x3 rD))⟩]

/-- The one store covers the output buffer. -/
theorem coverO (p0 : Vec F S1x1x256 .f32) (y : S1x1x256.Idx) :
    ∃ pc ∈ ([⟨rO, p0⟩] : List (View.Piece (Elt F) S1x1x256 .f32)), y ∈ pc.1.set :=
  View.cover_of_tiled [⟨rO, p0⟩] S1x1x256.size (by rfl) y

set_option maxHeartbeats 4000000 in
/-- The body's triple. -/
theorem sound_kernel (c : Dev nD) (E : Set ℕ) (i : grid0.Coords)
    (arg1 : Memref sig .tc .vmem S256x256 .f32) (harg1 : arg1.IsWhole) (arg2 : Memref sig .tc .vmem S8192x256 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S1x1x256 .f32) (harg5 : arg5.IsWhole) (arg6 : Memref sig .tc .vmem S1x1x256 .f32) (harg6 : arg6.IsWhole)
    (x0 : Vec F S256x256 .f32) (x1 : Vec F S8192x256 .f32) (x2 : Vec F S256x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outSum i x0 x1 x2 x3) ∗ owns (c : Thread nD τ) arg6 fullShare (outCnt i x0 x1 x2 x3)) -∗ K ⟨⟩))
      ⊢ wp frame (wpE (defs₀ (F := F)) Variants.none c none) E (cc0__triplet_kernel i arg1 harg1 arg2 harg2 arg3 harg3 arg4 harg4 arg5 harg5 arg6 harg6) K := by
  simp only [cc0__triplet_kernel_eq_skeleton]; unfold cc0__triplet_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverO _)
  iexists _; isplitr
  swap; · iexact H5
  ipureintro
  try dsimp only
  exact View.read_writes_eq_canon _ _ _ (coverO _)

end Cert.KernelIdeal.Fr

end
-- ==== Proof.KDat.lean ====
/-
  The proof data of the one kernel region, for a valuation V of the buffers at the region's entry: the four
  input windows find their blocks of the arrays (the tile of rows and the tile of labels move with the grid
  point; the whole matrix of rows and the whole label vector are fetched once and stay), the two output
  windows are left at the tile's row sums and row counts. The matrix of normalised rows is read by TWO
  windows (its 256-row tile and the whole of it): each holds one half of the array's share.
-/
import proofs.«140858_j40114994544729_2_alg».proof.Proof.KBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outSum (grid0.coords t) (iblk V c 0 t) (iblk V c 1 t) (iblk V c 2 t) (iblk V c 3 t)
    | ⟨5, _⟩ => outCnt (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outSum (grid0.coords t) (iblk V c 0 t) (iblk V c 1 t) (iblk V c 2 t) (iblk V c 3 t) := by dsimp only [dat]
theorem after_5 (c : Dev nD) (t : Fin cfg0.N) : (dat V c).after 5 t = outCnt (grid0.coords t) (iblk V c 0 t) (iblk V c 1 t) (iblk V c 2 t) (iblk V c 3 t) := by dsimp only [dat]

/-- Each input window's current buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Fr

end
-- ==== Proof.KArrays.lean ====
/-
  The arrays of the kernel region against the core's unscoped buffers. The matrix of normalised rows is one
  buffer behind two windows: entering the region its full share is cut into the two halves the windows hold,
  leaving it the halves are joined again (an input array is never written, so both halves hold the entry
  contents). The other arrays are distinct buffers held whole.
-/
import proofs.«140858_j40114994544729_2_alg».proof.Proof.KDat
import Idealize.ShloMosaic.Lib.Pipeline.Frame
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: the two halves of the rows' buffer, then four whole buffers. -/
theorem arrays_chain (c : Dev nD) (Fa : (w : Fin cfg0.W) → Buf (Elt F) ((cfg0.win w).arr.view.loc (c : Thread nD τ))) :
    ((dat V c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2) ∗ (((c : Thread nD τ).loc main_v9) ↦{fullShare} Fa 3)
          ∗ (((c : Thread nD τ).loc main_v10_0) ↦{fullShare} Fa 4) ∗ (((c : Thread nD τ).loc main_v10_1) ↦{fullShare} Fa 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- The buffers behind the arrays, one by one. -/
theorem arrBufs_chain (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v7) ↦{fullShare} Vc main_v7) ∗ (((c : Thread nD τ).loc main_v8) ↦{fullShare} Vc main_v8)
          ∗ (((c : Thread nD τ).loc main_v9) ↦{fullShare} Vc main_v9) ∗ (((c : Thread nD τ).loc main_v10_0) ↦{fullShare} Vc main_v10_0)
          ∗ (((c : Thread nD τ).loc main_v10_1) ↦{fullShare} Vc main_v10_1)) := by
  unfold Pipeline.arrBufs
  rw [bigSep_eq_bigSepL_of_eq [main_v7, main_v8, main_v9, main_v10_0, main_v10_1] (by decide) (by decide)]
  rfl

/-- ENTRY: the buffers behind the arrays, whole at the entry contents, are the region's arrays at entry. -/
theorem arr_split (c : Dev nD) :
    (Pipeline.arrBufs (Ix := Unit) (Name := ℕ) (U := UR sig nD τ) (Lvl := ℕ) spec0 c (V c) : sProp 𝕄) ⊢ (dat V c).arrays ((dat V c).arrAt · 0) := by
  rw [arrBufs_chain, arrays_chain]
  iintro ⟨H7, H8, H9, H0, H1⟩
  ihave H7' := (pointsTo_share (PosShare.mem_left_op_right fullShare)).1 $$ H7
  icases H7' with ⟨H7l, H7r⟩
  isplitl [H7l]; · iexact H7l
  isplitl [H7r]; · iexact H7r
  isplitl [H8]; · iexact H8
  isplitl [H9]; · iexact H9
  isplitl [H0]; · iexact H0
  iexact H1

/-- EXIT: the region's arrays at their final contents are the buffers behind them, whole, at any valuation that has
    the inputs' buffers at the entry contents and the two results' at what the write-backs left. -/
theorem arr_join (c : Dev nD) (Vc : (b : Ref sig .tc) → Buf (Elt F) ((c : Thread nD τ).loc b))
    (h7 : Vc main_v7 = V c main_v7) (h8 : Vc main_v8 = V c main_v8) (h9 : Vc main_v9 = V c main_v9)
    (h0 : Vc main_v10_0 = (dat V c).arrAt 4 cfg0.N) (h1 : Vc main_v10_1 = (dat V c).arrAt 5 cfg0.N) :
    ((dat V c).arrays ((dat V c).arrAt · cfg0.N) : sProp 𝕄) ⊢ Pipeline.arrBufs (Ix := Unit) (Name := ℕ) (U := UR sig nD τ) (Lvl := ℕ) spec0 c Vc := by
  rw [arrBufs_chain, arrays_chain, h7, h8, h9, h0, h1,
    (dat V c).arrAt_in 0 rfl cfg0.N, (dat V c).arrAt_in 1 rfl cfg0.N, (dat V c).arrAt_in 2 rfl cfg0.N, (dat V c).arrAt_in 3 rfl cfg0.N]
  iintro ⟨H7l, H7r, H8, H9, H0, H1⟩
  isplitl [H7l H7r]
  · iapply (pointsTo_share (PosShare.mem_left_op_right fullShare)).2
    isplitl [H7l]; · iexact H7l
    iexact H7r
  isplitl [H8]; · iexact H8
  isplitl [H9]; · iexact H9
  isplitl [H0]; · iexact H0
  iexact H1

end Cert.KernelIdeal.Fr

end
-- ==== Proof.KRegion.lean ====
/-
  The run of the whole program: the host operations that normalise the rows and lay out the labels, the one
  kernel region, the host operations that add up the two result arrays and form the mean. Between two items the
  core holds every unscoped buffer whole at a known valuation: the launch contents, then each stretch's fold, the
  region leaving the two result arrays at what its write-backs made of them and every other buffer as entered.
-/
import proofs.«140858_j40114994544729_2_alg».proof.Proof.KArrays

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the host operations before the region. -/
abbrev W1 : Dev nD → Valuation τ sig (Elt F) := fun c => StableHlo.after hostOps0 (W0 m c)
/-- The same read at the TensorCore's references: what the region's proof data take. -/
abbrev V1 : (c : Dev nD) → (b : Ref sig .tc) → Buf (Elt F) ((c : Thread nD τ).loc b) := fun c b => W1 m c b
/-- At the region's exit: the two result arrays at what the write-backs left, every other buffer as entered. -/
def W2 (c : Dev nD) : Valuation τ sig (Elt F) :=
  Function.update (Function.update (W1 m c) main_v10_0 ((dat (V1 m) c).arrAt 4 cfg0.N)) main_v10_1 ((dat (V1 m) c).arrAt 5 cfg0.N)
abbrev V2 : (c : Dev nD) → (b : Ref sig .tc) → Buf (Elt F) ((c : Thread nD τ).loc b) := fun c b => W2 m c b
/-- After the host operations that follow the region, and after the outlined select. -/
abbrev W3 : Dev nD → Valuation τ sig (Elt F) := fun c => StableHlo.after hostOps1 (W2 m c)
abbrev W4 : Dev nD → Valuation τ sig (Elt F) := fun c => StableHlo.after hostOps1_1 (W3 m c)

theorem W2_sum (c : Dev nD) : W2 m c main_v10_0 = (dat (V1 m) c).arrAt 4 cfg0.N := by
  unfold W2
  rw [Function.update_of_ne (StableHlo.devRef_ne_of_ne (by decide) : (Proc.devRef .tc main_v10_0 : DevRef τ sig) ≠ Proc.devRef .tc main_v10_1), Function.update_self]
theorem W2_cnt (c : Dev nD) : W2 m c main_v10_1 = (dat (V1 m) c).arrAt 5 cfg0.N := by
  unfold W2; rw [Function.update_self]
theorem W2_of_ne (c : Dev nD) (b : Ref sig .tc) (h0 : b ≠ main_v10_0) (h1 : b ≠ main_v10_1) : W2 m c b = W1 m c b := by
  unfold W2
  rw [Function.update_of_ne (StableHlo.devRef_ne_of_ne h1 : (Proc.devRef .tc b : DevRef τ sig) ≠ Proc.devRef .tc main_v10_1),
    Function.update_of_ne (StableHlo.devRef_ne_of_ne h0 : (Proc.devRef .tc b : DevRef τ sig) ≠ Proc.devRef .tc main_v10_0)]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers no window reads or writes hold at the region's exit what they held at its entry. -/
theorem rest_eq (c : Dev nD) :
    (Pipeline.unscopedRest (Ix := Unit) (Name := ℕ) (U := UR sig nD τ) (Lvl := ℕ) spec0 c (V2 m c) : sProp 𝕄)
      = Pipeline.unscopedRest (Ix := Unit) (Name := ℕ) (U := UR sig nD τ) (Lvl := ℕ) spec0 c (V1 m c) := by
  unfold Pipeline.unscopedRest
  exact bigSep_congr fun b hb => by
    have hb' := (Finset.mem_sdiff.mp hb).2
    rw [show V2 m c b = V1 m c b from W2_of_ne m c b
      (fun e => hb' (Finset.mem_image.mpr ⟨4, Finset.mem_univ _, e.symm⟩)) (fun e => hb' (Finset.mem_image.mpr ⟨5, Finset.mem_univ _, e.symm⟩))]

set_option backward.isDefEq.respectTransparency.types false in
/-- The kernel region over the thread state: entered from every unscoped buffer at W1, left at W2. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none, ← Pipeline.unscopedBufs_held c (W1 m c), Pipeline.unscopedBufs_split₀ cfgs 0 winFacts₀0.arr_unscoped c (V1 m c)]
    have hs : (Pipeline.arrBufs (Ix := Unit) (Name := ℕ) (U := UR sig nD τ) (Lvl := ℕ) spec0 c (V1 m c) : sProp 𝕄)
        ⊢ (pdats m 0 c).arrays ((pdats m 0 c).arrAt · 0) := arr_split (V1 m) c
    iintro ⟨⟨⟨Hab, Hrest⟩, Hp, HO⟩, -, -⟩
    ihave Ha := hs $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [← Pipeline.unscopedBufs_held c (W2 m c), Pipeline.unscopedBufs_split₀ cfgs 0 winFacts₀0.arr_unscoped c (V2 m c), rest_eq]
    have hj : ((pdats m 0 c).arrays ((pdats m 0 c).arrAt · (Pipeline.pin (pcfgs (F := F)) adm 0).N) : sProp 𝕄)
        ⊢ Pipeline.arrBufs (Ix := Unit) (Name := ℕ) (U := UR sig nD τ) (Lvl := ℕ) spec0 c (V2 m c) :=
      arr_join (V1 m) c (V2 m c) (W2_of_ne m c main_v7 (by decide) (by decide)) (W2_of_ne m c main_v8 (by decide) (by decide))
        (W2_of_ne m c main_v9 (by decide) (by decide)) (W2_sum m c) (W2_cnt m c)
    iintro ⟨Ha, HO, HY, Hrest⟩
    ihave Hab := hj $$ Ha
    imodintro
    isplitl [Hab Hrest]
    · isplitl [Hab]; · iexact Hab
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)) ]
theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W4 m c) ∗ ∃ r, prngReg c r)

set_option backward.isDefEq.respectTransparency.types false in
/-- THE RUN: from any memory with zero counters every weakly fair execution of @main terminates, and every final state
    has every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Fr

end
-- ==== Proof.KFrame.lean ====
/-
  What the run leaves in the argument arrays and the result: no host operation and no write-back of the region
  touches an argument, so both arguments end as launched; the result buffer ends at the fold of the host
  operations over the valuation the region leaves.
-/
import proofs.«140858_j40114994544729_2_alg».proof.Proof.KRegion

set_option maxRecDepth 16384

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem hostOps0_keeps (b : Ref sig .tc) (hb : b ∉ ([main_v0, main_cst, main_v1, main_v2, main_v3, main_cst_0, main_v4, main_v5, main_v6, main_v7, main_v8, main_v9] : List (Ref sig .tc)))
    (W : Valuation τ sig (Elt F)) : StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.reshape_writes, Finset.mem_singleton]
    simp only [List.mem_cons, List.mem_nil_iff, or_false, not_or] at hb
    obtain ⟨h0, h1, h2, h3, h4, h5, h6, h7, h8, h9, h10, h11⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5,
      StableHlo.devRef_ne_of_ne h6, StableHlo.devRef_ne_of_ne h7, StableHlo.devRef_ne_of_ne h8, StableHlo.devRef_ne_of_ne h9, StableHlo.devRef_ne_of_ne h10, StableHlo.devRef_ne_of_ne h11⟩))

theorem hostOps1_keeps (b : Ref sig .tc) (hb : b ∉ ([main_cst_1, main_v11, main_cst_2, main_v12, main_cst_3, main_v13, main_cst_4, main_v14, main_v15, main_cst_5] : List (Ref sig .tc)))
    (W : Valuation τ sig (Elt F)) : StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.reshape_writes, Finset.mem_singleton]
    simp only [List.mem_cons, List.mem_nil_iff, or_false, not_or] at hb
    obtain ⟨h0, h1, h2, h3, h4, h5, h6, h7, h8, h9⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5,
      StableHlo.devRef_ne_of_ne h6, StableHlo.devRef_ne_of_ne h7, StableHlo.devRef_ne_of_ne h8, StableHlo.devRef_ne_of_ne h9⟩))

theorem hostOps1_1_keeps (b : Ref sig .tc) (hb : b ≠ main_v16)
    (W : Valuation τ sig (Elt F)) : StableHlo.after hostOps1_1 W (Proc.devRef .tc b) = W (Proc.devRef .tc b) :=
  StableHlo.after_of_forall_not_mem (b := Proc.devRef .tc b) _ _ (List.forall_iff_forall_mem.mp (by
    simp only [hostOps1_1, List.Forall, StableHlo.TRef.ternary, StableHlo.ternary_writes, Finset.mem_singleton]
    exact StableHlo.devRef_ne_of_ne hb))

/-- The arguments end as launched. -/
theorem W4_arg0 (c : Dev nD) : W4 m c main_arg0 = m ((c : Thread nD τ).loc main_arg0) :=
  (hostOps1_1_keeps main_arg0 (by decide) _).trans <| (hostOps1_keeps main_arg0 (by decide) _).trans <|
    (W2_of_ne m c main_arg0 (by decide) (by decide)).trans <| (hostOps0_keeps main_arg0 (by decide) _).trans rfl
theorem W4_arg1 (c : Dev nD) : W4 m c main_arg1 = m ((c : Thread nD τ).loc main_arg1) :=
  (hostOps1_1_keeps main_arg1 (by decide) _).trans <| (hostOps1_keeps main_arg1 (by decide) _).trans <|
    (W2_of_ne m c main_arg1 (by decide) (by decide)).trans <| (hostOps0_keeps main_arg1 (by decide) _).trans rfl

/-- THE RUN, READ: the result buffer at the last valuation, both arguments as launched. -/
theorem run : θ_run defs (onTc (τ := τ) (main (F := F))) ⟨m, fun _ => 0, ρ⟩ (fun r => ∀ c : Dev nD,
      r.2.mem ((c.tc : Thread nD τ).loc main_v16) = W4 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_uc main_v16 (by decide)),
      (h c _ (mem_uc main_arg0 (by decide))).trans (W4_arg0 m c),
      (h c _ (mem_uc main_arg1 (by decide))).trans (W4_arg1 m c)⟩) (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run m ρ)

end Cert.KernelIdeal.Fr

end
-- ==== Proof.Spec.lean ====
/-
  The specification of the triplet loss, on the extended reals, stated twice: in the arrangement the
  kernel computes it (row by row: the anchor row's hardest negative, the masked entries sent to a large
  negative number before the hinge) and in the arrangement the reference computes it (the hinge first, the
  mask afterwards, the active entries counted as integers). `e` is the matrix of normalised rows, `lab` the labels.
-/
import Idealize.ShloMosaic.PureOps.Ideal
import Idealize.ShloMosaic.Lib.ValueIdx

noncomputable section

namespace Cert.Spec

open Idealize.ShloMosaic

/-- A [8192, 256] array of extended reals as its rows, and a [8192] array of 32-bit words as a function of the row number. -/
def rowsOf (x : (⟨2, ![8192, 256]⟩ : Shape).Idx → EReal) : Fin 8192 → Fin 256 → EReal := fun a k => x (ValueIdx.ix2 a k)
def labsOf (l : (⟨1, ![8192]⟩ : Shape).Idx → BitVec 32) : Fin 8192 → BitVec 32 := fun a => l (ValueIdx.ix1 a)

/-- The constants of both programs, as the extended reals their f32 words denote. -/
def zero : EReal := Ideal.ofBits .f32 0x00000000#32
def one : EReal := Ideal.ofBits .f32 0x3F800000#32
def big : EReal := Ideal.ofBits .f32 0x4E6E6B28#32
def nbig : EReal := Ideal.ofBits .f32 0xCE6E6B28#32

/-- Inner product of two rows, and the clamped cosine distance `max 0 (1 - ⟨u, v⟩)`. -/
def simr (u v : Fin 256 → EReal) : EReal := ∑ k : Fin 256, u k * v k
def distr (u v : Fin 256 → EReal) : EReal := max zero (one - simr u v)

/-- The hardest negative of an anchor row `u` with label `la`: the least distance to a row of another label
    (rows of the same label count as `big`); the infimum over all rows, `⊤` its neutral element. -/
def hardr (u : Fin 256 → EReal) (e : Fin 8192 → Fin 256 → EReal) (la : BitVec 32) (lab : Fin 8192 → BitVec 32) : EReal :=
  Finset.univ.inf fun b : Fin 8192 => if la = lab b then big else distr u (e b)

/-- KERNEL arrangement: the loss of the pair (anchor row number `a`, row `b`): entries that are no positive pair are
    replaced by `nbig` BEFORE the hinge. -/
def lossKr (u : Fin 256 → EReal) (e : Fin 8192 → Fin 256 → EReal) (la : BitVec 32) (lab : Fin 8192 → BitVec 32) (a : ℕ) (b : Fin 8192) : EReal :=
  max (((if la = lab b ∧ a ≠ b.val then distr u (e b) else nbig) - hardr u e la lab) + one) zero

/-- One anchor row's sum of losses and its number of strictly positive losses (as an extended real). -/
def rowSum (u : Fin 256 → EReal) (e : Fin 8192 → Fin 256 → EReal) (la : BitVec 32) (lab : Fin 8192 → BitVec 32) (a : ℕ) : EReal :=
  ∑ b : Fin 8192, lossKr u e la lab a b
def rowCnt (u : Fin 256 → EReal) (e : Fin 8192 → Fin 256 → EReal) (la : BitVec 32) (lab : Fin 8192 → BitVec 32) (a : ℕ) : EReal :=
  ∑ b : Fin 8192, if zero < lossKr u e la lab a b then (1 : EReal) else 0

/-- The mean over the active pairs, `0` when there is none: `where(cnt > 0, total / max(cnt, 1), 0)`. -/
def fin (total cnt : EReal) : EReal := if zero < cnt then Ideal.div total (max cnt one) else zero

/-- The kernel's arrangement of the whole result. -/
def totalK (e : Fin 8192 → Fin 256 → EReal) (lab : Fin 8192 → BitVec 32) : EReal := ∑ a : Fin 8192, rowSum (e a) e (lab a) lab a.val
def cntK (e : Fin 8192 → Fin 256 → EReal) (lab : Fin 8192 → BitVec 32) : EReal := ∑ a : Fin 8192, rowCnt (e a) e (lab a) lab a.val
def resultK (e : Fin 8192 → Fin 256 → EReal) (lab : Fin 8192 → BitVec 32) : EReal := fin (totalK e lab) (cntK e lab)

/-- REFERENCE arrangement: the hinge first, the mask afterwards. -/
def lossR (e : Fin 8192 → Fin 256 → EReal) (lab : Fin 8192 → BitVec 32) (a b : Fin 8192) : EReal :=
  if lab a = lab b ∧ a ≠ b then max ((distr (e a) (e b) - hardr (e a) e (lab a) lab) + one) zero else zero
def totalR (e : Fin 8192 → Fin 256 → EReal) (lab : Fin 8192 → BitVec 32) : EReal := ∑ a : Fin 8192, ∑ b : Fin 8192, lossR e lab a b
/-- The number of strictly positive losses, a natural number (the reference counts in 32-bit integers). -/
def cntR (e : Fin 8192 → Fin 256 → EReal) (lab : Fin 8192 → BitVec 32) : ℕ :=
  (Finset.univ.filter fun p : Fin 8192 × Fin 8192 => zero < lossR e lab p.1 p.2).card
def resultR (e : Fin 8192 → Fin 256 → EReal) (lab : Fin 8192 → BitVec 32) : EReal :=
  if 0 < cntR e lab then Ideal.div (totalR e lab) (((max (cntR e lab) 1 : ℕ) : ℝ) : EReal) else zero

end Cert.Spec

end
-- ==== Proof.Words.lean ====
/-
  The four f32 constants of the triplet loss as extended reals.

  An f32 word denotes  ±(2^23 + T) · 2^(E - 127 - 23)  for a normal exponent field E and trailing field T.
  The zero word is 0; 0x3F800000 has E = 127, T = 0, so it is 2^23 · 2^(-23) = 1; 0x4E6E6B28 has E = 156,
  T = 7236392, so it is 15625000 · 2^6 = 10^9; 0xCE6E6B28 is the same with the sign bit set, -10^9.
-/
import proofs.«140858_j40114994544729_2_alg».proof.Proof.Spec
import Idealize.ShloMosaic.PureOps.Ideal.Laws

noncomputable section

namespace Cert.Spec

open Idealize.ShloMosaic

/-- The zero word is the number zero. -/
theorem zero_eq : zero = 0 := Ideal.ofBits_zero_f32

/-- The word 0x3F800000 is the number one. -/
theorem one_eq : one = 1 := by
  unfold one
  simp [Ideal.ofBits, Ideal.ieee, -EReal.coe_mul]; norm_num

/-- The word 0x4E6E6B28 is 10^9. -/
theorem big_eq : big = ((10^9 : ℝ) : EReal) := by
  have h : ((10:ℝ)^9) = 1000000000 := by norm_num
  rw [h]; unfold big
  simp [Ideal.ofBits, Ideal.ieee, -EReal.coe_mul]; norm_num

/-- The word 0xCE6E6B28 is -10^9. -/
theorem nbig_eq : nbig = ((-(10^9) : ℝ) : EReal) := by
  have h : ((10:ℝ)^9) = 1000000000 := by norm_num
  rw [h]; unfold nbig
  simp [Ideal.ofBits, Ideal.ieee, -EReal.coe_mul]; norm_num

end Cert.Spec

end
-- ==== Proof.HostValue.lean ====
/-
  The host operations of the kernel program before and after its one kernel region, read as values on the extended reals.

  Before the region: the rows are normalised, x / max (sqrt (Σ_k x²)) 1e-12, which is kept as one folded term; and the
  label vector is reshaped to a column [8192, 1] and to a row [1, 8192], which read the label at the one free coordinate
  (a reshape keeps the row-major position, and the other axis has one element).

  After the region: the two [32, 1, 256] arrays of partial results are summed over all their axes from 0 — a sum over
  the rank-3 index set, which is the double sum over (t, j) because the middle axis has one element —, giving the total
  and the count; then  select (count > 0) (total / max count 1) 0,  which is the mean over the active pairs, 0 when
  there is none.
-/
import proofs.«140858_j40114994544729_2_alg».proof.Proof.Gen.KernelIdeal.Launch
import proofs.«140858_j40114994544729_2_alg».proof.Proof.Words
import Idealize.ShloMosaic.Lib.StableHlo.Run
import Idealize.ShloMosaic.Lib.ValueIdx
import Idealize.ShloMosaic.Lib.ValueLayout
import Idealize.ShloMosaic.Lib.IdealHost

noncomputable section

namespace Cert.KerSide

open Idealize.ShloMosaic Idealize.ShloMosaic.TcCoe Idealize.ShloMosaic.ValueIdx Cert.KernelIdeal Cert.KernelIdeal.Gen

/-! ## Before the region -/

/-- rows normalised: x / max (sqrt (Σ_k x²)) 1e-12 — the term of main_v7, kept folded -/
def normE (x : FVec Ideal S8192x256 .f32) : FVec Ideal S8192x256 .f32 :=
  Host.divf (F := Ideal) x (broadcastInDim S8192x256 ![0, 1] bcast_S8192x1_S8192x256_0_1 (maximumf (Host.sqrt (F := Ideal) (broadcastInDim S8192x1 ![0] bcast_S8192_S8192x1_0 (Host.reduceAdd (F := Ideal) (mulf x x) (constant (F := Ideal) S_ .f32 0x00000000#32) reducesTo_S8192x256_S8192_d1 h_S_))) (broadcastInDim S8192x1 ![] bcast_S_S8192x1 (constant (F := Ideal) S_ .f32 0x2B8CBCCC#32))))

/-- The array the region reads its rows from is the normalised input. -/
theorem head_v7 (W : Valuation τ sig (Elt Ideal)) :
    StableHlo.after (hostOps0 (F := Ideal)) W (Proc.devRef .tc main_v7) = normE (W (Proc.devRef .tc main_arg0)) := by
  unfold normE
  after_results

/-- The labels as a column: entry (a, 0) is label a. -/
theorem head_v8 (W : Valuation τ sig (Elt Ideal)) (a : Fin 8192) :
    StableHlo.after (hostOps0 (F := Ideal)) W (Proc.devRef .tc main_v8) (ix2 a (0 : Fin 1)) = W (Proc.devRef .tc main_arg1) (ix1 a) := by
  have e : (StableHlo.after (hostOps0 (F := Ideal)) W (Proc.devRef .tc main_v8) : S8192x1.Idx → BitVec 32)
      = shapeCast S8192x1 (W (Proc.devRef .tc main_arg1) : S8192.Idx → BitVec 32) shapeCasts_S8192_S8192x1 := by
    after_results
    rfl
  refine (congrFun e _).trans ?_
  refine shapeCast_apply (s := S8192) (t := S8192x1) _ _ _ _ ?_
  rw [Shape.rowMajor_val_one, Shape.rowMajor_val_two]
  show a.val = a.val * 1 + 0
  omega

/-- The labels as a row: entry (0, b) is label b. -/
theorem head_v9 (W : Valuation τ sig (Elt Ideal)) (b : Fin 8192) :
    StableHlo.after (hostOps0 (F := Ideal)) W (Proc.devRef .tc main_v9) (ix2 (0 : Fin 1) b) = W (Proc.devRef .tc main_arg1) (ix1 b) := by
  have e : (StableHlo.after (hostOps0 (F := Ideal)) W (Proc.devRef .tc main_v9) : S1x8192.Idx → BitVec 32)
      = shapeCast S1x8192 (W (Proc.devRef .tc main_arg1) : S8192.Idx → BitVec 32) shapeCasts_S8192_S1x8192 := by
    after_results
    rfl
  refine (congrFun e _).trans ?_
  exact shapeCast_a_1a_apply (a := 8192) _ _ _ _

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a middle axis of one element: the double sum over the two outer coordinates. -/
theorem sum_idx3_mid1 {M : Type*} [AddCommMonoid M] {n0 n2 : Nat} (f : (⟨3, ![n0, 1, n2]⟩ : Shape).Idx → M) :
    ∑ i, f i = ∑ a : Fin n0, ∑ c : Fin n2, f (ix3 a (0 : Fin 1) c) := by
  rw [sum_idx3]
  exact Finset.sum_congr rfl fun a _ => Fin.sum_univ_one _

/-! ## After the region -/

/-- The float sum of a [32, 1, 256] array over all its axes from the zero word, at the scalar's one index: the double
    sum over (t, j). -/
theorem total_apply (x : FVec Ideal S32x1x256 .f32) (i : S_.Idx) :
    Host.reduceAdd (F := Ideal) x (constant (F := Ideal) S_ .f32 0x00000000#32) reducesTo_S32x1x256_S_d0_1_2 h_S_ i
      = ∑ t : Fin 32, ∑ j : Fin 256, x (ix3 t (0 : Fin 1) j) := by
  rw [hostReduceAdd_apply, Ideal.hostReduceAdd_total _ (fun b => b.elim0), constant_apply, Ideal.ofBits_zero_f32, zero_add]
  exact sum_idx3_mid1 x

/-- The operations after the region, composed: select (count > 0) (total / max count 1) 0 on the two sums. -/
def tailT (x0 x1 : FVec Ideal S32x1x256 .f32) : FVec Ideal S_ .f32 :=
  select
    (cmpf .ogt (Host.reduceAdd (F := Ideal) x1 (constant (F := Ideal) S_ .f32 0x00000000#32) reducesTo_S32x1x256_S_d0_1_2 h_S_) (constant (F := Ideal) S_ .f32 0x00000000#32))
    (Host.divf (F := Ideal) (Host.reduceAdd (F := Ideal) x0 (constant (F := Ideal) S_ .f32 0x00000000#32) reducesTo_S32x1x256_S_d0_1_2 h_S_)
      (maximumf (Host.reduceAdd (F := Ideal) x1 (constant (F := Ideal) S_ .f32 0x00000000#32) reducesTo_S32x1x256_S_d0_1_2 h_S_) (constant (F := Ideal) S_ .f32 0x3F800000#32)))
    (constant (F := Ideal) S_ .f32 0x00000000#32)

/-- The result array after the last operation is that composed term of the region's two result arrays. -/
theorem tail_eq_tailT (W : Valuation τ sig (Elt Ideal)) :
    StableHlo.after (hostOps1_1 (F := Ideal)) (StableHlo.after (hostOps1 (F := Ideal)) W) (Proc.devRef .tc main_v16)
      = tailT (W (Proc.devRef .tc main_v10_0)) (W (Proc.devRef .tc main_v10_1)) := by
  unfold tailT
  after_results
  rfl

/-- A select on the bit of "c is above z" is the conditional on that comparison. -/
theorem select_ogt {α : Type} (c z : EReal) (A B : α) : Scalar.select (Ideal.cmp .ogt c z) A B = if z < c then A else B := by
  unfold Ideal.cmp Scalar.select
  by_cases h : z < c
  · rw [if_pos h]; simp [h]
  · rw [if_neg h]; simp [h]

/-- The composed term is the mean over the active pairs of the two double sums. -/
theorem tailT_eq (x0 x1 : FVec Ideal S32x1x256 .f32) :
    tailT x0 x1 = fun _ => Cert.Spec.fin (∑ t : Fin 32, ∑ j : Fin 256, x0 (ix3 t (0 : Fin 1) j)) (∑ t : Fin 32, ∑ j : Fin 256, x1 (ix3 t (0 : Fin 1) j)) := by
  funext i
  unfold tailT Cert.Spec.fin Cert.Spec.zero Cert.Spec.one
  rw [select_apply, cmpf_apply, hostDivf_apply, maximumf_apply, total_apply, total_apply, constant_apply, constant_apply]
  exact select_ogt _ _ _ _

/-- The program's result: the mean over the active pairs of the sums of the region's two result arrays. -/
theorem tail_v16 (W : Valuation τ sig (Elt Ideal)) :
    StableHlo.after (hostOps1_1 (F := Ideal)) (StableHlo.after (hostOps1 (F := Ideal)) W) (Proc.devRef .tc main_v16)
      = fun _ => Cert.Spec.fin (∑ t : Fin 32, ∑ j : Fin 256, W (Proc.devRef .tc main_v10_0) (ix3 t (0 : Fin 1) j)) (∑ t : Fin 32, ∑ j : Fin 256, W (Proc.devRef .tc main_v10_1) (ix3 t (0 : Fin 1) j)) :=
  (tail_eq_tailT W).trans (tailT_eq _ _)

end Cert.KerSide

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayDist.lean ====
/-
  The pairwise quantities of the triplet loss, read at an entry (p, b) of the [256, 8192] matrix the kernel body
  forms for one tile of 256 anchor rows against all 8192 rows.

  * The product of the tile with the transposed matrix of rows, accumulated into zero, is at (p, b) the inner product
    of anchor row p with row b; hence max 0 (1 - product) there is the clamped cosine distance of the two rows.
  * The label mask: the word equality of the anchor's label (a [256, 1] column repeated along the rows) with row b's
    label (a [1, 8192] row repeated along the columns).
  * The diagonal mask: the anchor's global row number, tile * 256 + p, computed on 32-bit words and compared with b.
    With tile < 32, p < 256 and b < 8192 nothing wraps around, so the words are equal exactly when the numbers are.
  * "same label and not the diagonal" on one-bit words: and (x, xor (y, 1)).
-/
import proofs.«140858_j40114994544729_2_alg».proof.Proof.Spec
import proofs.«140858_j40114994544729_2_alg».proof.Proof.LibMatmulNT
import proofs.«140858_j40114994544729_2_alg».proof.Proof.LibColumn
import proofs.«140858_j40114994544729_2_alg».proof.Proof.Gen.KernelIdeal.Skeleton
import Idealize.ShloMosaic.Lib.ValueLayout
import Idealize.ShloMosaic.Lib.Affine

noncomputable section

namespace Cert.KerVal

open Idealize.ShloMosaic Idealize.ShloMosaic.ValueIdx Cert.KernelIdeal Cert.KernelIdeal.Gen

/-- The [256, 8192] matrix of clamped cosine distances of the tile's anchor rows to all rows, as the kernel body forms it. -/
def distM (v0 : Vec Ideal S256x256 .f32) (v2 : Vec Ideal S8192x256 .f32) : FVec Ideal S256x8192 .f32 :=
  maximumf (broadcast S256x8192 (Scalar.ofBits (F := Ideal) .f32 0x00000000#32))
    (subf (broadcast S256x8192 (Scalar.ofBits (F := Ideal) .f32 0x3F800000#32))
      (matmul dot_S256x256_S8192x256_S256x8192_1_1_0_0_n_n none
        (shapeCast S256x256 v0 shapeCasts_S256x256_S256x256 : FVec Ideal S256x256 .f32)
        (shapeCast S8192x256 v2 shapeCasts_S8192x256_S8192x256 : FVec Ideal S8192x256 .f32)
        (constant S256x8192 .f32 0x00000000#32)))

/-- The label mask: anchor label (a column, repeated along each row) against row label (a row, repeated along each column). -/
def labM (v4 : Vec Ideal S256x1 .i32) (v6 : Vec Ideal S1x8192 .i32) : IVec S256x8192 1 :=
  cmpi .eq (broadcastTo S256x8192 (shapeCast S256x1 v4 shapeCasts_S256x1_S256x1 : IVec S256x1 32) broadcasts_S256x1_S256x8192)
    (broadcastTo S256x8192 (shapeCast S1x8192 v6 shapeCasts_S1x8192_S1x8192 : IVec S1x8192 32) broadcasts_S1x8192_S256x8192)

/-- The diagonal mask: the anchor's global row number (tile * 256 + row within the tile, on 32-bit words) against the
    column number. -/
def diagM (i : grid0.Coords) : IVec S256x8192 1 :=
  cmpi .eq
    (broadcastTo S256x8192
      (addi (broadcast S256x1 (Scalar.muli (BitVec.ofNat 32 (i 0).val) 256#32)) (iota .tc S256x1 32 [0] iota_S256x1_d0_w32))
      broadcasts_S256x1_S256x8192)
    (broadcastTo S256x8192 (iota .tc S1x8192 32 [1] iota_S1x8192_d1_w32) broadcasts_S1x8192_S256x8192)

/-- The clamped cosine distance at entry (p, b): max 0 (1 - ⟨row p of the tile, row b⟩). -/
theorem dist_apply (v0 : Vec Ideal S256x256 .f32) (v2 : Vec Ideal S8192x256 .f32) (p : Fin 256) (b : Fin 8192) :
    maximumf (broadcast S256x8192 (Scalar.ofBits (F := Ideal) .f32 0x00000000#32))
      (subf (broadcast S256x8192 (Scalar.ofBits (F := Ideal) .f32 0x3F800000#32))
        (matmul dot_S256x256_S8192x256_S256x8192_1_1_0_0_n_n none
          (shapeCast S256x256 v0 shapeCasts_S256x256_S256x256 : FVec Ideal S256x256 .f32)
          (shapeCast S8192x256 v2 shapeCasts_S8192x256_S8192x256 : FVec Ideal S8192x256 .f32)
          (constant S256x8192 .f32 0x00000000#32))) (ix2 p b)
      = Cert.Spec.distr (fun k : Fin 256 => v0 (ix2 p k)) (fun k : Fin 256 => v2 (ix2 b k)) := by
  show max (Ideal.ofBits .f32 0x00000000#32) (Ideal.ofBits .f32 0x3F800000#32 -
      matmul dot_S256x256_S8192x256_S256x8192_1_1_0_0_n_n none
          (shapeCast S256x256 v0 shapeCasts_S256x256_S256x256 : FVec Ideal S256x256 .f32)
          (shapeCast S8192x256 v2 shapeCasts_S8192x256_S8192x256 : FVec Ideal S8192x256 .f32)
          (constant S256x8192 .f32 0x00000000#32) (ix2 p b)) = _
  refine congrArg (fun t => max (Ideal.ofBits .f32 0x00000000#32) (Ideal.ofBits .f32 0x3F800000#32 - t)) ?_
  refine (Cert.Gram.matmul_nt_zero_apply (m := 256) (n := 8192) (k := 256)
    dot_S256x256_S8192x256_S256x8192_1_1_0_0_n_n_wf none _ _ p b).trans ?_
  rw [shapeCast_self, shapeCast_self]
  rfl

/-- The label mask at entry (p, b): set exactly when anchor p's label word is row b's label word. -/
theorem labmask_apply (v4 : Vec Ideal S256x1 .i32) (v6 : Vec Ideal S1x8192 .i32) (p : Fin 256) (b : Fin 8192) :
    cmpi .eq (broadcastTo S256x8192 (shapeCast S256x1 v4 shapeCasts_S256x1_S256x1) broadcasts_S256x1_S256x8192)
      (broadcastTo S256x8192 (shapeCast S1x8192 v6 shapeCasts_S1x8192_S1x8192) broadcasts_S1x8192_S256x8192) (ix2 p b) = 1#1
      ↔ v4 (ix2 p (0 : Fin 1)) = v6 (ix2 (0 : Fin 1) b) := by
  show IntOp.cmpi .eq
      (broadcastTo S256x8192 (shapeCast S256x1 v4 shapeCasts_S256x1_S256x1) broadcasts_S256x1_S256x8192 (ix2 p b))
      (broadcastTo S256x8192 (shapeCast S1x8192 v6 shapeCasts_S1x8192_S1x8192) broadcasts_S1x8192_S256x8192 (ix2 p b)) = 1#1 ↔ _
  rw [IntOp.cmpi_eq, Cert.LibColumn.broadcastTo_a1_ab_apply (a := 256) (b := 8192),
    broadcastTo_1b_ab_apply (a := 256) (b := 8192), shapeCast_self, shapeCast_self]

/-- Words of small numbers: tile * 256 + p, computed on 32-bit words, equals the word of b exactly when the numbers
    are equal (tile < 32, p < 256, b < 8192: no wrap-around). -/
theorem rowword_eq_iff (n p b : ℕ) (hn : n < 32) (hp : p < 256) (hb : b < 8192) :
    IntOp.cmpi .eq (IntOp.addi (Scalar.muli (BitVec.ofNat 32 n) 256#32) (BitVec.ofNat 32 (0 * 256 + p)))
      (BitVec.ofNat 32 (0 * 8192 + b)) = 1#1 ↔ n * 256 + p = b := by
  rw [IntOp.cmpi_eq]
  show BitVec.ofNat 32 n * 256#32 + BitVec.ofNat 32 (0 * 256 + p) = BitVec.ofNat 32 (0 * 8192 + b) ↔ _
  rw [show (256#32 : BitVec 32) = BitVec.ofNat 32 256 from rfl, ← BitVec.ofNat_mul, ← BitVec.ofNat_add]
  constructor
  · intro h
    have := congrArg BitVec.toNat h
    rw [BitVec.toNat_ofNat, BitVec.toNat_ofNat] at this
    omega
  · intro h
    refine congrArg (BitVec.ofNat 32) ?_
    omega

/-- The diagonal mask at entry (p, b): set exactly when the anchor's global row number tile * 256 + p is b. -/
theorem diagmask_apply (i : grid0.Coords) (p : Fin 256) (b : Fin 8192) :
    cmpi .eq
      (broadcastTo S256x8192
        (addi (broadcast S256x1 (Scalar.muli (BitVec.ofNat 32 (i 0).val) 256#32)) (iota .tc S256x1 32 [0] iota_S256x1_d0_w32))
        broadcasts_S256x1_S256x8192)
      (broadcastTo S256x8192 (iota .tc S1x8192 32 [1] iota_S1x8192_d1_w32) broadcasts_S1x8192_S256x8192) (ix2 p b) = 1#1
      ↔ (i 0).val * 256 + p.val = b.val := by
  show IntOp.cmpi .eq
      (broadcastTo S256x8192
        (addi (broadcast S256x1 (Scalar.muli (BitVec.ofNat 32 (i 0).val) 256#32)) (iota .tc S256x1 32 [0] iota_S256x1_d0_w32))
        broadcasts_S256x1_S256x8192 (ix2 p b))
      (broadcastTo S256x8192 (iota .tc S1x8192 32 [1] iota_S1x8192_d1_w32) broadcasts_S1x8192_S256x8192 (ix2 p b)) = 1#1 ↔ _
  rw [Cert.LibColumn.broadcastTo_a1_ab_apply (a := 256) (b := 8192), broadcastTo_1b_ab_apply (a := 256) (b := 8192)]
  exact rowword_eq_iff (i 0).val p.val b.val (i 0).isLt p.isLt b.isLt

theorem distM_apply (v0 : Vec Ideal S256x256 .f32) (v2 : Vec Ideal S8192x256 .f32) (p : Fin 256) (b : Fin 8192) :
    distM v0 v2 (ix2 p b) = Cert.Spec.distr (fun k : Fin 256 => v0 (ix2 p k)) (fun k : Fin 256 => v2 (ix2 b k)) :=
  dist_apply v0 v2 p b

theorem labM_apply (v4 : Vec Ideal S256x1 .i32) (v6 : Vec Ideal S1x8192 .i32) (p : Fin 256) (b : Fin 8192) :
    labM v4 v6 (ix2 p b) = 1#1 ↔ v4 (ix2 p (0 : Fin 1)) = v6 (ix2 (0 : Fin 1) b) :=
  labmask_apply v4 v6 p b

theorem diagM_apply (i : grid0.Coords) (p : Fin 256) (b : Fin 8192) :
    diagM i (ix2 p b) = 1#1 ↔ (i 0).val * 256 + p.val = b.val :=
  diagmask_apply i p b

/-- On one-bit words, and (x, xor (y, 1)) is set exactly when x is set and y is not. -/
theorem and_not_bit (x y : BitVec 1) : IntOp.andi x (IntOp.xori y 1#1) = 1#1 ↔ (x = 1#1 ∧ ¬ y = 1#1) := by
  revert x y; decide

end Cert.KerVal

end
-- ==== Proof.LibMinCols.lean ====
/-
  A matrix's minimum along its rows' entries, read at a coordinate, at the exact (extended-real) reading of the floats.

  For an a × b matrix M the minimum over the columns (axis 1) at row r is the running minimum of M[r, ·] from the
  accumulator's value: the fold of min over the b entries of row r, in any order. Started from +∞ (the f32 word
  0x7F800000, the top element of the extended reals) this fold is the infimum of the row: the greatest lower bound of
  its entries, +∞ being the infimum's neutral element.
-/
import Idealize.ShloMosaic.PureOps.Ideal.Laws
import Idealize.ShloMosaic.Lib.ValueIdx

noncomputable section

namespace Cert.LibMinCols

open Idealize.ShloMosaic Idealize.ShloMosaic.ValueIdx

/-- Minimum over the columns of an a × b matrix, at row r: the running minimum of the row from the accumulator's
    value. -/
theorem min_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun c => src (ix2 r c)) := by
  refine (multiReduction_minimumf_eq_fold src acc h hφ hacc (ix1 r)).trans ?_
  refine (h.fold_filter_drop_single _ _ src (ix1 r)).trans ?_
  exact Finset.fold_congr fun c _ => congrArg src
      (funext fun ax => Fin.ext (by match ax with | ⟨0, _⟩ => rfl | ⟨1, _⟩ => rfl))

/-- The f32 word of +∞ is the top element of the extended reals. -/
theorem ofBits_inf_f32 : Ideal.ofBits .f32 0x7F800000#32 = ⊤ := by simp [Ideal.ofBits, Ideal.ieee]

/-- A fold of min started from the top element is the infimum: both are the greatest lower bound of the values. -/
theorem fold_min_top_eq_inf {ι : Type} (s : Finset ι) (f : ι → EReal) : s.fold min ⊤ f = s.inf f := by
  refine eq_of_forall_le_iff fun c => ?_
  rw [Finset.le_fold_min, Finset.le_inf_iff]
  exact ⟨fun h => h.2, fun h => ⟨le_top, h⟩⟩

/-- The minimum over the columns from the word of +∞, at row r: the infimum of the row. -/
theorem min_cols_inf_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).inf (fun c => src (ix2 r c)) := by
  refine (min_cols_apply src _ h hφ hacc r).trans ?_
  rw [ofBits_inf_f32]
  exact fold_min_top_eq_inf _ _

end Cert.LibMinCols

end
-- ==== Proof.PayHard.lean ====
/-
  The hardest negative of each anchor row of the tile.

  The kernel body replaces the distance by a large constant where the labels agree, takes the minimum of each row of
  the resulting [256, 8192] matrix starting from +∞, and views the 256 minima as a [256, 1] column. At (p, ·) the
  column holds the infimum over all rows b of (big if the labels agree, else the distance of anchor p to row b): the
  specification's hardest negative of anchor p.
-/
import proofs.«140858_j40114994544729_2_alg».proof.Proof.PayDist
import proofs.«140858_j40114994544729_2_alg».proof.Proof.LibMinCols

noncomputable section

namespace Cert.KerVal

open Idealize.ShloMosaic Idealize.ShloMosaic.ValueIdx Cert.KernelIdeal Cert.KernelIdeal.Gen

/-- The distances with the same-label entries replaced by the large constant. -/
def negM (v0 : Vec Ideal S256x256 .f32) (v2 : Vec Ideal S8192x256 .f32) (v4 : Vec Ideal S256x1 .i32)
    (v6 : Vec Ideal S1x8192 .i32) : FVec Ideal S256x8192 .f32 :=
  select (labM v4 v6) (broadcast S256x8192 (Scalar.ofBits (F := Ideal) .f32 0x4E6E6B28#32)) (distM v0 v2)

/-- The column of row minima. -/
def hardC (v0 : Vec Ideal S256x256 .f32) (v2 : Vec Ideal S8192x256 .f32) (v4 : Vec Ideal S256x1 .i32)
    (v6 : Vec Ideal S1x8192 .i32) : FVec Ideal S256x1 .f32 :=
  shapeCast S256x1
    (multiReduction .minimumf [1] S256 (negM v0 v2 v4 v6) 0x7F800000#32 reduces_S256x8192_S256 (.inl rfl) rfl : FVec Ideal S256 .f32)
    shapeCasts_S256_S256x1

/-- Entry (p, b) of the masked distances. -/
theorem negM_apply (v0 : Vec Ideal S256x256 .f32) (v2 : Vec Ideal S8192x256 .f32) (v4 : Vec Ideal S256x1 .i32)
    (v6 : Vec Ideal S1x8192 .i32) (p : Fin 256) (b : Fin 8192) :
    negM v0 v2 v4 v6 (ix2 p b)
      = if v4 (ix2 p (0 : Fin 1)) = v6 (ix2 (0 : Fin 1) b) then Cert.Spec.big
        else Cert.Spec.distr (fun k : Fin 256 => v0 (ix2 p k)) (fun k : Fin 256 => v2 (ix2 b k)) := by
  show Scalar.select (labM v4 v6 (ix2 p b)) (Ideal.ofBits .f32 0x4E6E6B28#32) (distM v0 v2 (ix2 p b)) = _
  rw [distM_apply]
  unfold Scalar.select
  exact if_congr (labM_apply v4 v6 p b) rfl rfl

/-- The column of row minima at (p, ·): the hardest negative of anchor p. -/
theorem hardC_apply (v0 : Vec Ideal S256x256 .f32) (v2 : Vec Ideal S8192x256 .f32) (v4 : Vec Ideal S256x1 .i32)
    (v6 : Vec Ideal S1x8192 .i32) (p : Fin 256) (u : Fin 1) :
    hardC v0 v2 v4 v6 (ix2 p u)
      = Cert.Spec.hardr (fun k : Fin 256 => v0 (ix2 p k)) (fun (b : Fin 8192) (k : Fin 256) => v2 (ix2 b k))
          (v4 (ix2 p (0 : Fin 1))) (fun b : Fin 8192 => v6 (ix2 (0 : Fin 1) b)) := by
  unfold hardC
  refine (Cert.LibColumn.shapeCast_a_a1_apply (a := 256) _ shapeCasts_S256_S256x1 p u).trans ?_
  refine (Cert.LibMinCols.min_cols_inf_apply (a := 256) (b := 8192) _ reduces_S256x8192_S256 (.inl rfl) rfl p).trans ?_
  unfold Cert.Spec.hardr
  exact Finset.inf_congr rfl fun b _ => negM_apply v0 v2 v4 v6 p b

end Cert.KerVal

end
-- ==== Proof.PayLoss.lean ====
/-
  The [256, 8192] matrix of pair losses the kernel body forms, read at an entry.

  Entries that are not a positive pair (the labels differ, or the column is the anchor itself) are replaced by a large
  negative constant; the anchor's hardest negative (a column, repeated along each row) is subtracted, one is added, and
  the result is clamped below at zero. At (p, b) this is the specification's loss of the pair (anchor number
  tile * 256 + p, row b). The generated payload of the kernel body is this matrix, by unfolding.
-/
import proofs.«140858_j40114994544729_2_alg».proof.Proof.PayHard

noncomputable section

namespace Cert.KerVal

open Idealize.ShloMosaic Idealize.ShloMosaic.ValueIdx Cert.KernelIdeal Cert.KernelIdeal.Gen

/-- The matrix of pair losses. -/
def lossM (i : grid0.Coords) (v0 : Vec Ideal S256x256 .f32) (v2 : Vec Ideal S8192x256 .f32) (v4 : Vec Ideal S256x1 .i32)
    (v6 : Vec Ideal S1x8192 .i32) : FVec Ideal S256x8192 .f32 :=
  maximumf
    (addf
      (subf
        (select (andi (labM v4 v6) (xori (diagM i) (constantI S256x8192 1 1#1))) (distM v0 v2)
          (broadcast S256x8192 (Scalar.ofBits (F := Ideal) .f32 0xCE6E6B28#32)))
        (broadcastTo S256x8192 (hardC v0 v2 v4 v6) broadcasts_S256x1_S256x8192))
      (broadcast S256x8192 (Scalar.ofBits (F := Ideal) .f32 0x3F800000#32)))
    (broadcast S256x8192 (Scalar.ofBits (F := Ideal) .f32 0x00000000#32))

/-- The kernel body's payload is this matrix. -/
theorem pay3_eq (i : grid0.Coords) (v0 : Vec Ideal S256x256 .f32) (v2 : Vec Ideal S8192x256 .f32) (v4 : Vec Ideal S256x1 .i32)
    (v6 : Vec Ideal S1x8192 .i32) : k0_pay3 (F := Ideal) i v0 v2 v4 v6 = lossM i v0 v2 v4 v6 := rfl

/-- Entry (p, b) of the matrix of pair losses. -/
theorem lossM_apply (i : grid0.Coords) (v0 : Vec Ideal S256x256 .f32) (v2 : Vec Ideal S8192x256 .f32) (v4 : Vec Ideal S256x1 .i32)
    (v6 : Vec Ideal S1x8192 .i32) (p : Fin 256) (b : Fin 8192) :
    lossM i v0 v2 v4 v6 (ix2 p b)
      = Cert.Spec.lossKr (fun k : Fin 256 => v0 (ix2 p k)) (fun (b : Fin 8192) (k : Fin 256) => v2 (ix2 b k))
          (v4 (ix2 p (0 : Fin 1))) (fun b : Fin 8192 => v6 (ix2 (0 : Fin 1) b)) ((i 0).val * 256 + p.val) b := by
  show max
      ((Scalar.select (IntOp.andi (labM v4 v6 (ix2 p b)) (IntOp.xori (diagM i (ix2 p b)) 1#1)) (distM v0 v2 (ix2 p b))
          (Ideal.ofBits .f32 0xCE6E6B28#32)
        - broadcastTo S256x8192 (hardC v0 v2 v4 v6) broadcasts_S256x1_S256x8192 (ix2 p b))
        + Ideal.ofBits .f32 0x3F800000#32)
      (Ideal.ofBits .f32 0x00000000#32) = _
  rw [Cert.LibColumn.broadcastTo_a1_ab_apply (a := 256) (b := 8192), hardC_apply, distM_apply]
  unfold Cert.Spec.lossKr Scalar.select
  refine congrArg (fun t => max ((t - _) + Cert.Spec.one) Cert.Spec.zero) ?_
  refine if_congr ?_ rfl rfl
  refine (and_not_bit _ _).trans ?_
  exact and_congr (labM_apply v4 v6 p b) (not_congr (diagM_apply i p b))

/-- Entry (p, b) of the kernel body's payload. -/
theorem pay3_apply (i : grid0.Coords) (v0 : Vec Ideal S256x256 .f32) (v2 : Vec Ideal S8192x256 .f32) (v4 : Vec Ideal S256x1 .i32)
    (v6 : Vec Ideal S1x8192 .i32) (p : Fin 256) (b : Fin 8192) :
    k0_pay3 (F := Ideal) i v0 v2 v4 v6 (ix2 p b)
      = Cert.Spec.lossKr (fun k : Fin 256 => v0 (ix2 p k)) (fun (b : Fin 8192) (k : Fin 256) => v2 (ix2 b k))
          (v4 (ix2 p (0 : Fin 1))) (fun b : Fin 8192 => v6 (ix2 (0 : Fin 1) b)) ((i 0).val * 256 + p.val) b :=
  (congrFun (pay3_eq i v0 v2 v4 v6) (ix2 p b)).trans (lossM_apply i v0 v2 v4 v6 p b)

end Cert.KerVal

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.PaySum.lean ====
/-
  The row-sum output block of one tile.

  Each row of the matrix of pair losses is summed (a sum over axis 1 into the zero accumulator), the 256 sums are viewed
  as a [256, 1] column, the column is transposed to a [1, 256] row and given a leading unit axis. Read at (0, 0, j) the
  block holds the sum over all rows b of the loss of the pair (anchor tile * 256 + j, row b): the specification's row sum.
-/
import proofs.«140858_j40114994544729_2_alg».proof.Proof.PayLoss
import proofs.«140858_j40114994544729_2_alg».proof.Proof.LibAxisReduce

noncomputable section

namespace Cert.KerVal

open Idealize.ShloMosaic Idealize.ShloMosaic.ValueIdx Cert.KernelIdeal Cert.KernelIdeal.Gen

/-- A [256, 1] column transposed to a row and given a leading unit axis reads, at (0, 0, j), the column at (j, 0). -/
theorem rowblock_apply {α : Type} (c : S256x1.Idx → α) (j : Fin 256) :
    shapeCast S1x1x256 (transpose S1x256 [1, 0] c transposes_S256x1_p1_0_S1x256) shapeCasts_S1x256_S1x1x256
        (ix3 (0 : Fin 1) (0 : Fin 1) j) = c (ix2 j (0 : Fin 1)) :=
  (shapeCast_ab_1ab_apply (a := 1) (b := 256) _ shapeCasts_S1x256_S1x1x256 (0 : Fin 1) (0 : Fin 1) j).trans
    (transpose_ix2_apply (a := 256) (b := 1) c transposes_S256x1_p1_0_S1x256 (0 : Fin 1) j)

/-- The column of row sums at (p, ·): the specification's row sum of anchor tile * 256 + p. -/
theorem pay4_apply (i : grid0.Coords) (v0 : Vec Ideal S256x256 .f32) (v2 : Vec Ideal S8192x256 .f32) (v4 : Vec Ideal S256x1 .i32)
    (v6 : Vec Ideal S1x8192 .i32) (p : Fin 256) (u : Fin 1) :
    k0_pay4 (F := Ideal) i v0 v2 v4 v6 (ix2 p u)
      = Cert.Spec.rowSum (fun k : Fin 256 => v0 (ix2 p k)) (fun (b : Fin 8192) (k : Fin 256) => v2 (ix2 b k))
          (v4 (ix2 p (0 : Fin 1))) (fun b : Fin 8192 => v6 (ix2 (0 : Fin 1) b)) ((i 0).val * 256 + p.val) := by
  unfold k0_pay4
  refine (Cert.LibColumn.shapeCast_a_a1_apply (a := 256) _ shapeCasts_S256_S256x1 p u).trans ?_
  refine (Cert.LibAxisReduce.add_cols_apply (a := 256) (b := 8192) _ _ reduces_S256x8192_S256 (.inl rfl) rfl p).trans ?_
  unfold Cert.Spec.rowSum
  exact Finset.sum_congr rfl fun b _ => pay3_apply i v0 v2 v4 v6 p b

/-- The row-sum output block at (0, 0, j). -/
theorem sum_payload (i : grid0.Coords) (v0 : Vec Ideal S256x256 .f32) (v2 : Vec Ideal S8192x256 .f32) (v4 : Vec Ideal S256x1 .i32)
    (v6 : Vec Ideal S1x8192 .i32) (j : Fin 256) :
    k0_pay1 (F := Ideal) (k0_pay4 i v0 v2 v4 v6) (ix3 (0 : Fin 1) (0 : Fin 1) j)
      = Cert.Spec.rowSum (fun k : Fin 256 => v0 (ix2 j k)) (fun (b : Fin 8192) (k : Fin 256) => v2 (ix2 b k))
          (v4 (ix2 j (0 : Fin 1))) (fun b : Fin 8192 => v6 (ix2 (0 : Fin 1) b)) ((i 0).val * 256 + j.val) := by
  unfold k0_pay1
  exact (rowblock_apply _ j).trans (pay4_apply i v0 v2 v4 v6 j (0 : Fin 1))

end Cert.KerVal

end
-- ==== Proof.PayCnt.lean ====
/-
  The row-count output block of one tile.

  The test "entry > 0" on the matrix of pair losses gives a one-bit word; widened to 32 bits and converted to a float it
  is the number 1 where the loss is strictly positive and 0 elsewhere. Each row of this 0/1 matrix is summed into the
  zero accumulator, the sums are viewed as a column, transposed to a row and given a leading unit axis. Read at
  (0, 0, j) the block holds the number of rows b whose loss against anchor tile * 256 + j is strictly positive, as an
  extended real: the specification's row count.
-/
import proofs.«140858_j40114994544729_2_alg».proof.Proof.PaySum

noncomputable section

namespace Cert.KerVal

open Idealize.ShloMosaic Idealize.ShloMosaic.ValueIdx Cert.KernelIdeal Cert.KernelIdeal.Gen

/-- "x > 0" as a one-bit word, widened and converted to a float: 1 when 0 < x, else 0. -/
theorem pos_word (x : EReal) :
    (FloatOps.sitofp (F := Ideal) .f32 ((FloatOps.cmpf (F := Ideal) (φ := .f32) .ogt x (Ideal.ofBits .f32 0x00000000#32)).setWidth 32) : EReal)
      = if Cert.Spec.zero < x then (1 : EReal) else 0 := by
  show ((((BitVec.ofBool (decide (Ideal.ofBits .f32 0x00000000#32 < x))).setWidth 32).toInt : ℝ) : EReal) = _
  by_cases h : Cert.Spec.zero < x
  · have h' : Ideal.ofBits .f32 0x00000000#32 < x := h
    rw [if_pos h, decide_eq_true h']
    have e : ((BitVec.ofBool true).setWidth 32).toInt = 1 := by decide
    rw [e]; simp
  · have h' : ¬ Ideal.ofBits .f32 0x00000000#32 < x := h
    rw [if_neg h, decide_eq_false h']
    have e : ((BitVec.ofBool false).setWidth 32).toInt = 0 := by decide
    rw [e]; simp

/-- The 0/1 matrix of strictly positive entries, read at an index. -/
theorem posM_apply {s : Shape} (x : FVec Ideal s .f32) (h : 1 < 32) (j : s.Idx) :
    (sitofp .f32 (extui 32 (cmpf .ogt x (broadcast s (Scalar.ofBits (F := Ideal) .f32 0x00000000#32))) h) : FVec Ideal s .f32) j
      = if Cert.Spec.zero < x j then (1 : EReal) else 0 :=
  pos_word (x j)

/-- The row-count output block at (0, 0, j). -/
theorem cnt_payload (i : grid0.Coords) (v0 : Vec Ideal S256x256 .f32) (v2 : Vec Ideal S8192x256 .f32) (v4 : Vec Ideal S256x1 .i32)
    (v6 : Vec Ideal S1x8192 .i32) (j : Fin 256) :
    k0_pay2 (F := Ideal) (k0_pay3 i v0 v2 v4 v6) (ix3 (0 : Fin 1) (0 : Fin 1) j)
      = Cert.Spec.rowCnt (fun k : Fin 256 => v0 (ix2 j k)) (fun (b : Fin 8192) (k : Fin 256) => v2 (ix2 b k))
          (v4 (ix2 j (0 : Fin 1))) (fun b : Fin 8192 => v6 (ix2 (0 : Fin 1) b)) ((i 0).val * 256 + j.val) := by
  unfold k0_pay2
  refine (rowblock_apply _ j).trans ?_
  refine (Cert.LibColumn.shapeCast_a_a1_apply (a := 256) _ shapeCasts_S256_S256x1 j (0 : Fin 1)).trans ?_
  refine (Cert.LibAxisReduce.add_cols_apply (a := 256) (b := 8192) _ _ reduces_S256x8192_S256 (.inl rfl) rfl j).trans ?_
  unfold Cert.Spec.rowCnt
  refine Finset.sum_congr rfl fun b _ => ?_
  refine (posM_apply _ natLt_1_32 (ix2 j b)).trans ?_
  rw [pay3_apply]

end Cert.KerVal

end
-- ==== Proof.KBlocks.lean ====
/-
  What one grid point of the row-tiled triplet loss reads and writes, in terms of the whole arrays.

  At grid point t the pipeline hands the kernel body four blocks: rows 256 t … 256 t + 255 of the matrix of normalised
  rows, the whole matrix, the labels of those 256 rows, and all labels. The block index maps are decided once over the
  32 grid points; a block's coordinate in its array is always (block index) × (block size) + (coordinate inside the
  block). Hence what point t leaves in its two output buffers, read at lane j, is the specification's row sum and row
  count of the global anchor row 256 t + j, over the whole arrays.
-/
import proofs.«140858_j40114994544729_2_alg».proof.Proof.KDat
import proofs.«140858_j40114994544729_2_alg».proof.Proof.PayCnt
import Idealize.ShloMosaic.Lib.Pipeline.Value

noncomputable section

namespace Cert.KerVal

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

/-- The block index maps over the grid: the tile of rows, the tile of labels and the two output blocks move with the
    point along axis 0; the whole matrix and the whole label vector stay at block (0, 0); the point's one coordinate is
    its number. -/
theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 3) = t.val ∧ win0_4.index t (1 : Fin 3) = 0 ∧ win0_4.index t (2 : Fin 3) = 0
  ∧ win0_5.index t (0 : Fin 3) = t.val ∧ win0_5.index t (1 : Fin 3) = 0 ∧ win0_5.index t (2 : Fin 3) = 0
  ∧ (grid0.coords t 0).val = t.val :=
  (by decide +kernel : ∀ t : Fin grid0.N, _)

theorem zeros2 : (![0, 0] : Fin 2 → Nat) = fun _ => 0 := funext fun a => by fin_cases a <;> rfl
theorem zeros3 : (![0, 0, 0] : Fin 3 → Nat) = fun _ => 0 := funext fun a => by fin_cases a <;> rfl

variable (V : (c : Dev nD) → (b : Ref sig .tc) → Buf (Elt Ideal) ((c : Thread nD τ).loc b))

/-- The tile of rows at point t: row j of the tile is row 256 t + j of the matrix. -/
theorem rowtile_apply (c : Dev nD) (t : Fin cfg0.N) (j k : Fin 256) (a : Fin 8192) (ha : a.val = t.val * 256 + j.val) :
    (iblk V c 0 t : Vec Ideal S256x256 .f32) (ix2 j k) = (V c main_v7 : S8192x256.Idx → EReal) (ix2 a k) := by
  obtain ⟨e0, e1, -⟩ := idx_facts t
  show V c main_v7 (((cfg0.win 0).blk t).view.emb (ix2 j k)) = V c main_v7 (ix2 a k)
  congr 1
  funext ax
  apply Fin.ext
  match ax with
  | ⟨0, _⟩ => show win0_0.index t (0 : Fin 2) * 256 + 1 * j.val = a.val; omega
  | ⟨1, _⟩ => show win0_0.index t (1 : Fin 2) * 256 + 1 * k.val = k.val; omega

/-- The whole matrix of rows at any point is the matrix. -/
theorem allrows_apply (c : Dev nD) (t : Fin cfg0.N) (b : Fin 8192) (k : Fin 256) :
    (iblk V c 1 t : Vec Ideal S8192x256 .f32) (ix2 b k) = (V c main_v7 : S8192x256.Idx → EReal) (ix2 b k) := by
  obtain ⟨-, -, e0, e1, -⟩ := idx_facts t
  show V c main_v7 (((cfg0.win 1).blk t).view.emb (ix2 b k)) = V c main_v7 (ix2 b k)
  congr 1
  funext ax
  apply Fin.ext
  match ax with
  | ⟨0, _⟩ => show win0_1.index t (0 : Fin 2) * 8192 + 1 * b.val = b.val; omega
  | ⟨1, _⟩ => show win0_1.index t (1 : Fin 2) * 256 + 1 * k.val = k.val; omega

/-- The tile of labels at point t: entry j is the label of row 256 t + j. -/
theorem labtile_apply (c : Dev nD) (t : Fin cfg0.N) (j : Fin 256) (u : Fin 1) (a : Fin 8192) (ha : a.val = t.val * 256 + j.val) :
    (iblk V c 2 t : Vec Ideal S256x1 .i32) (ix2 j u) = (V c main_v8 : S8192x1.Idx → BitVec 32) (ix2 a u) := by
  obtain ⟨-, -, -, -, e0, e1, -⟩ := idx_facts t
  show V c main_v8 (((cfg0.win 2).blk t).view.emb (ix2 j u)) = V c main_v8 (ix2 a u)
  congr 1
  funext ax
  apply Fin.ext
  match ax with
  | ⟨0, _⟩ => show win0_2.index t (0 : Fin 2) * 256 + 1 * j.val = a.val; omega
  | ⟨1, _⟩ => show win0_2.index t (1 : Fin 2) * 1 + 1 * u.val = u.val; omega

/-- The whole label vector at any point is the label vector. -/
theorem alllabs_apply (c : Dev nD) (t : Fin cfg0.N) (u : Fin 1) (b : Fin 8192) :
    (iblk V c 3 t : Vec Ideal S1x8192 .i32) (ix2 u b) = (V c main_v9 : S1x8192.Idx → BitVec 32) (ix2 u b) := by
  obtain ⟨-, -, -, -, -, -, e0, e1, -⟩ := idx_facts t
  show V c main_v9 (((cfg0.win 3).blk t).view.emb (ix2 u b)) = V c main_v9 (ix2 u b)
  congr 1
  funext ax
  apply Fin.ext
  match ax with
  | ⟨0, _⟩ => show win0_3.index t (0 : Fin 2) * 1 + 1 * u.val = u.val; omega
  | ⟨1, _⟩ => show win0_3.index t (1 : Fin 2) * 8192 + 1 * b.val = b.val; omega

/-- The one store into the row-sum buffer, read at lane j: the row sum of the tile's row j against the body's operands. -/
theorem outSum_apply (i : grid0.Coords) (x0 : Vec Ideal S256x256 .f32) (x1 : Vec Ideal S8192x256 .f32) (x2 : Vec Ideal S256x1 .i32)
    (x3 : Vec Ideal S1x8192 .i32) (j : Fin 256) :
    outSum (F := Ideal) i x0 x1 x2 x3 (ix3 (0 : Fin 1) (0 : Fin 1) j)
      = Cert.Spec.rowSum (fun k : Fin 256 => x0 (ix2 j k)) (fun (b : Fin 8192) (k : Fin 256) => x1 (ix2 b k))
          (x2 (ix2 j (0 : Fin 1))) (fun b : Fin 8192 => x3 (ix2 (0 : Fin 1) b)) ((i 0).val * 256 + j.val) := by
  unfold outSum
  rw [View.canon_unit_zero zeros3]
  simp only [View.ld_unit_zero (S := S256x256) zeros2, View.ld_unit_zero (S := S8192x256) zeros2,
    View.ld_unit_zero (S := S256x1) zeros2, View.ld_unit_zero (S := S1x8192) zeros2]
  exact sum_payload i x0 x1 x2 x3 j

/-- The one store into the row-count buffer, read at lane j. -/
theorem outCnt_apply (i : grid0.Coords) (x0 : Vec Ideal S256x256 .f32) (x1 : Vec Ideal S8192x256 .f32) (x2 : Vec Ideal S256x1 .i32)
    (x3 : Vec Ideal S1x8192 .i32) (j : Fin 256) :
    outCnt (F := Ideal) i x0 x1 x2 x3 (ix3 (0 : Fin 1) (0 : Fin 1) j)
      = Cert.Spec.rowCnt (fun k : Fin 256 => x0 (ix2 j k)) (fun (b : Fin 8192) (k : Fin 256) => x1 (ix2 b k))
          (x2 (ix2 j (0 : Fin 1))) (fun b : Fin 8192 => x3 (ix2 (0 : Fin 1) b)) ((i 0).val * 256 + j.val) := by
  unfold outCnt
  rw [View.canon_unit_zero zeros3]
  simp only [View.ld_unit_zero (S := S256x256) zeros2, View.ld_unit_zero (S := S8192x256) zeros2,
    View.ld_unit_zero (S := S256x1) zeros2, View.ld_unit_zero (S := S1x8192) zeros2]
  exact cnt_payload i x0 x1 x2 x3 j

/-- The row sum and the row count depend only on their five arguments. -/
theorem rowSum_congr {u u' : Fin 256 → EReal} {e e' : Fin 8192 → Fin 256 → EReal} {la la' : BitVec 32}
    {lab lab' : Fin 8192 → BitVec 32} {a a' : ℕ} (hu : u = u') (he : e = e') (hla : la = la') (hlab : lab = lab') (ha : a = a') :
    Cert.Spec.rowSum u e la lab a = Cert.Spec.rowSum u' e' la' lab' a' := by
  subst hu he hla hlab ha; rfl
theorem rowCnt_congr {u u' : Fin 256 → EReal} {e e' : Fin 8192 → Fin 256 → EReal} {la la' : BitVec 32}
    {lab lab' : Fin 8192 → BitVec 32} {a a' : ℕ} (hu : u = u') (he : e = e') (hla : la = la') (hlab : lab = lab') (ha : a = a') :
    Cert.Spec.rowCnt u e la lab a = Cert.Spec.rowCnt u' e' la' lab' a' := by
  subst hu he hla hlab ha; rfl

/-- What point t leaves in the row-sum buffer at lane j: the row sum of the global anchor row a = 256 t + j. -/
theorem afterSum_apply (c : Dev nD) (t : Fin cfg0.N) (j : Fin 256) (a : Fin 8192) (ha : a.val = t.val * 256 + j.val) :
    ((dat (F := Ideal) V c).after 4 t : Vec Ideal S1x1x256 .f32) (ix3 (0 : Fin 1) (0 : Fin 1) j)
      = Cert.Spec.rowSum (fun k : Fin 256 => (V c main_v7 : S8192x256.Idx → EReal) (ix2 a k))
          (fun (b : Fin 8192) (k : Fin 256) => (V c main_v7 : S8192x256.Idx → EReal) (ix2 b k))
          ((V c main_v8 : S8192x1.Idx → BitVec 32) (ix2 a (0 : Fin 1)))
          (fun b : Fin 8192 => (V c main_v9 : S1x8192.Idx → BitVec 32) (ix2 (0 : Fin 1) b)) a.val := by
  have hc : (grid0.coords t 0).val = t.val := (idx_facts t).2.2.2.2.2.2.2.2.2.2.2.2.2.2
  refine (congrFun (after_4 V c t) _).trans ?_
  refine (outSum_apply (grid0.coords t) _ _ _ _ j).trans ?_
  exact rowSum_congr (funext fun k => rowtile_apply V c t j k a ha)
    (funext fun b => funext fun k => allrows_apply V c t b k) (labtile_apply V c t j 0 a ha)
    (funext fun b => alllabs_apply V c t 0 b) (by rw [hc, ha])

/-- What point t leaves in the row-count buffer at lane j: the row count of the global anchor row a = 256 t + j. -/
theorem afterCnt_apply (c : Dev nD) (t : Fin cfg0.N) (j : Fin 256) (a : Fin 8192) (ha : a.val = t.val * 256 + j.val) :
    ((dat (F := Ideal) V c).after 5 t : Vec Ideal S1x1x256 .f32) (ix3 (0 : Fin 1) (0 : Fin 1) j)
      = Cert.Spec.rowCnt (fun k : Fin 256 => (V c main_v7 : S8192x256.Idx → EReal) (ix2 a k))
          (fun (b : Fin 8192) (k : Fin 256) => (V c main_v7 : S8192x256.Idx → EReal) (ix2 b k))
          ((V c main_v8 : S8192x1.Idx → BitVec 32) (ix2 a (0 : Fin 1)))
          (fun b : Fin 8192 => (V c main_v9 : S1x8192.Idx → BitVec 32) (ix2 (0 : Fin 1) b)) a.val := by
  have hc : (grid0.coords t 0).val = t.val := (idx_facts t).2.2.2.2.2.2.2.2.2.2.2.2.2.2
  refine (congrFun (after_5 V c t) _).trans ?_
  refine (outCnt_apply (grid0.coords t) _ _ _ _ j).trans ?_
  exact rowCnt_congr (funext fun k => rowtile_apply V c t j k a ha)
    (funext fun b => funext fun k => allrows_apply V c t b k) (labtile_apply V c t j 0 a ha)
    (funext fun b => alllabs_apply V c t 0 b) (by rw [hc, ha])

end Cert.KerVal

end
-- ==== Proof.KFinal.lean ====
/-
  The two result arrays of the row-tiled triplet loss after all 32 grid points.

  Point t writes its [1, 1, 256] block back to block t of the [32, 1, 256] result array; the 32 blocks tile the array
  (index (r, 0, j) lies in point r's block only). Each written block is the restriction of one function of the whole
  arrays: entry (r, 0, j) is the row sum (for the first result) or the row count (for the second) of the global anchor
  row 256 r + j. So after the last point each array IS that function.
-/
import proofs.«140858_j40114994544729_2_alg».proof.Proof.KBlocks

noncomputable section

namespace Cert.KerVal

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

/-- The global row number of entry (r, 0, j) of a result array: 256 r + j. -/
def rowOf (i : S32x1x256.Idx) : Fin 8192 :=
  ⟨(i 0).val * 256 + (i 2).val, by
    have h0 : (i 0).val < 32 := (i 0).isLt
    have h2 : (i 2).val < 256 := (i 2).isLt
    omega⟩

variable (V : (c : Dev nD) → (b : Ref sig .tc) → Buf (Elt Ideal) ((c : Thread nD τ).loc b))

/-- The array of row sums as one function of the whole arrays. -/
def sumArr (c : Dev nD) : S32x1x256.Idx → EReal := fun i =>
  Cert.Spec.rowSum (fun k : Fin 256 => (V c main_v7 : S8192x256.Idx → EReal) (ix2 (rowOf i) k))
    (fun (b : Fin 8192) (k : Fin 256) => (V c main_v7 : S8192x256.Idx → EReal) (ix2 b k))
    ((V c main_v8 : S8192x1.Idx → BitVec 32) (ix2 (rowOf i) (0 : Fin 1)))
    (fun b : Fin 8192 => (V c main_v9 : S1x8192.Idx → BitVec 32) (ix2 (0 : Fin 1) b)) (rowOf i).val

/-- The array of row counts as one function of the whole arrays. -/
def cntArr (c : Dev nD) : S32x1x256.Idx → EReal := fun i =>
  Cert.Spec.rowCnt (fun k : Fin 256 => (V c main_v7 : S8192x256.Idx → EReal) (ix2 (rowOf i) k))
    (fun (b : Fin 8192) (k : Fin 256) => (V c main_v7 : S8192x256.Idx → EReal) (ix2 b k))
    ((V c main_v8 : S8192x1.Idx → BitVec 32) (ix2 (rowOf i) (0 : Fin 1)))
    (fun b : Fin 8192 => (V c main_v9 : S1x8192.Idx → BitVec 32) (ix2 (0 : Fin 1) b)) (rowOf i).val

/-- An index of a [1, 1, 256] block is (0, 0, its lane). -/
theorem lane_eq (y : S1x1x256.Idx) : y = ix3 (0 : Fin 1) (0 : Fin 1) (y 2) := by
  funext ax
  apply Fin.ext
  match ax with
  | ⟨0, _⟩ => have h : (y 0).val < 1 := (y 0).isLt; show (y 0).val = 0; omega
  | ⟨1, _⟩ => have h : (y 1).val < 1 := (y 1).isLt; show (y 1).val = 0; omega
  | ⟨2, _⟩ => rfl

/-- Point t writes back block t of the array of row sums. -/
theorem flushedSum_eq (c : Dev nD) (t : Fin cfg0.N) :
    (dat (F := Ideal) V c).flushed 4 t = ((cfg0.win 4).blk t).view.read (Elt Ideal) (sumArr V c) := by
  show (cfg0.win 4).cut (grid0.coords t) ((dat (F := Ideal) V c).after 4 t) = _
  refine funext fun (y : S1x1x256.Idx) => ?_
  show ((dat (F := Ideal) V c).after 4 t : Vec Ideal S1x1x256 .f32) y = sumArr V c (((cfg0.win 4).blk t).view.emb y)
  obtain ⟨-, -, -, -, -, -, -, -, e0, e1, e2, -⟩ := idx_facts t
  have h0 : (y 0).val < 1 := (y 0).isLt
  have q0 : ((((cfg0.win 4).blk t).view.emb y) 0).val = win0_4.index t (0 : Fin 3) * 1 + 1 * (y 0).val := rfl
  have q2 : ((((cfg0.win 4).blk t).view.emb y) 2).val = win0_4.index t (2 : Fin 3) * 256 + 1 * (y 2).val := rfl
  refine (congrArg ((dat (F := Ideal) V c).after 4 t : Vec Ideal S1x1x256 .f32) (lane_eq y)).trans ?_
  exact afterSum_apply V c t (y 2) (rowOf (((cfg0.win 4).blk t).view.emb y)) (by
    show ((((cfg0.win 4).blk t).view.emb y) 0).val * 256 + ((((cfg0.win 4).blk t).view.emb y) 2).val = t.val * 256 + (y 2).val
    rw [q0, q2]; omega)

/-- Point t writes back block t of the array of row counts. -/
theorem flushedCnt_eq (c : Dev nD) (t : Fin cfg0.N) :
    (dat (F := Ideal) V c).flushed 5 t = ((cfg0.win 5).blk t).view.read (Elt Ideal) (cntArr V c) := by
  show (cfg0.win 5).cut (grid0.coords t) ((dat (F := Ideal) V c).after 5 t) = _
  refine funext fun (y : S1x1x256.Idx) => ?_
  show ((dat (F := Ideal) V c).after 5 t : Vec Ideal S1x1x256 .f32) y = cntArr V c (((cfg0.win 5).blk t).view.emb y)
  obtain ⟨-, -, -, -, -, -, -, -, -, -, -, e0, e1, e2, -⟩ := idx_facts t
  have h0 : (y 0).val < 1 := (y 0).isLt
  have q0 : ((((cfg0.win 5).blk t).view.emb y) 0).val = win0_5.index t (0 : Fin 3) * 1 + 1 * (y 0).val := rfl
  have q2 : ((((cfg0.win 5).blk t).view.emb y) 2).val = win0_5.index t (2 : Fin 3) * 256 + 1 * (y 2).val := rfl
  refine (congrArg ((dat (F := Ideal) V c).after 5 t : Vec Ideal S1x1x256 .f32) (lane_eq y)).trans ?_
  exact afterCnt_apply V c t (y 2) (rowOf (((cfg0.win 5).blk t).view.emb y)) (by
    show ((((cfg0.win 5).blk t).view.emb y) 0).val * 256 + ((((cfg0.win 5).blk t).view.emb y) 2).val = t.val * 256 + (y 2).val
    rw [q0, q2]; omega)

/-- An index of the first result array is in point t's block iff each coordinate is in the block's range on its axis. -/
theorem mem_blkSum (t : Fin cfg0.N) (i : S32x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v10_0).slice (win0_4.rect t)).set ↔ _
  rw [View.set_slice_whole, Rect.mem_set_unit]
  exact Iff.rfl

/-- The same for the second result array. -/
theorem mem_blkCnt (t : Fin cfg0.N) (i : S32x1x256.Idx) :
    i ∈ ((cfg0.win 5).blk t).view.set ↔ ∀ a : Fin 3, win0_5.index t a * S1x1x256.size a ≤ (i a).val
      ∧ (i a).val < win0_5.index t a * S1x1x256.size a + S1x1x256.size a := by
  show i ∈ ((View.whole main_v10_1).slice (win0_5.rect t)).set ↔ _
  rw [View.set_slice_whole, Rect.mem_set_unit]
  exact Iff.rfl

/-- The point whose number is an index's leading coordinate. -/
def pointOf (i : S32x1x256.Idx) : Fin cfg0.N :=
  ⟨(i 0).val, by rw [show cfg0.N = 32 from N_0]; exact (i 0).isLt⟩

/-- Every index of the first result array is in the block of the point its leading coordinate names. -/
theorem coverSum (i : S32x1x256.Idx) : ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 256 := (i 2).isLt
  refine ⟨pointOf i, flush0_4 (pointOf i), ?_⟩
  rw [mem_blkSum]
  obtain ⟨-, -, -, -, -, -, -, -, e0, e1, e2, -⟩ := idx_facts (pointOf i)
  have ht : (pointOf i).val = (i 0).val := rfl
  intro a
  match a with
  | ⟨0, _⟩ => show win0_4.index (pointOf i) (0 : Fin 3) * 1 ≤ (i 0).val ∧ (i 0).val < win0_4.index (pointOf i) (0 : Fin 3) * 1 + 1; omega
  | ⟨1, _⟩ => show win0_4.index (pointOf i) (1 : Fin 3) * 1 ≤ (i 1).val ∧ (i 1).val < win0_4.index (pointOf i) (1 : Fin 3) * 1 + 1; omega
  | ⟨2, _⟩ => show win0_4.index (pointOf i) (2 : Fin 3) * 256 ≤ (i 2).val ∧ (i 2).val < win0_4.index (pointOf i) (2 : Fin 3) * 256 + 256; omega

/-- The same for the second result array. -/
theorem coverCnt (i : S32x1x256.Idx) : ∃ t : Fin cfg0.N, (cfg0.win 5).flush t = true ∧ i ∈ ((cfg0.win 5).blk t).view.set := by
  have h0 : (i 0).val < 32 := (i 0).isLt
  have h1 : (i 1).val < 1 := (i 1).isLt
  have h2 : (i 2).val < 256 := (i 2).isLt
  refine ⟨pointOf i, flush0_5 (pointOf i), ?_⟩
  rw [mem_blkCnt]
  obtain ⟨-, -, -, -, -, -, -, -, -, -, -, e0, e1, e2, -⟩ := idx_facts (pointOf i)
  have ht : (pointOf i).val = (i 0).val := rfl
  intro a
  match a with
  | ⟨0, _⟩ => show win0_5.index (pointOf i) (0 : Fin 3) * 1 ≤ (i 0).val ∧ (i 0).val < win0_5.index (pointOf i) (0 : Fin 3) * 1 + 1; omega
  | ⟨1, _⟩ => show win0_5.index (pointOf i) (1 : Fin 3) * 1 ≤ (i 1).val ∧ (i 1).val < win0_5.index (pointOf i) (1 : Fin 3) * 1 + 1; omega
  | ⟨2, _⟩ => show win0_5.index (pointOf i) (2 : Fin 3) * 256 ≤ (i 2).val ∧ (i 2).val < win0_5.index (pointOf i) (2 : Fin 3) * 256 + 256; omega

/-- After the last point the first result array is the array of row sums. -/
theorem sumArr_final (c : Dev nD) : (dat (F := Ideal) V c).arrAt 4 cfg0.N = sumArr V c :=
  (dat (F := Ideal) V c).arrAt_eq_of_cover 4 (sumArr V c) (fun t _ => flushedSum_eq V c t) coverSum

/-- After the last point the second result array is the array of row counts. -/
theorem cntArr_final (c : Dev nD) : (dat (F := Ideal) V c).arrAt 5 cfg0.N = cntArr V c :=
  (dat (F := Ideal) V c).arrAt_eq_of_cover 5 (cntArr V c) (fun t _ => flushedCnt_eq V c t) coverCnt

/-- Entry (t, 0, j) of the first result array: the row sum of the global anchor row a = 256 t + j. -/
theorem sumArr_apply (V : (c : Dev nD) → (b : Ref sig .tc) → Buf (Elt Ideal) ((c : Thread nD τ).loc b)) (c : Dev nD)
    (t : Fin 32) (j : Fin 256) (a : Fin 8192) (ha : a.val = t.val * 256 + j.val) :
    (dat (F := Ideal) V c).arrAt 4 cfg0.N (ix3 t (0 : Fin 1) j)
      = Cert.Spec.rowSum (fun k : Fin 256 => V c main_v7 (ix2 a k)) (fun (b : Fin 8192) (k : Fin 256) => V c main_v7 (ix2 b k))
          (V c main_v8 (ix2 a (0 : Fin 1))) (fun b : Fin 8192 => V c main_v9 (ix2 (0 : Fin 1) b)) a.val := by
  refine (congrFun (sumArr_final V c) (ix3 t (0 : Fin 1) j)).trans ?_
  have e : rowOf (ix3 t (0 : Fin 1) j) = a := Fin.ext (by show t.val * 256 + j.val = a.val; omega)
  unfold sumArr
  rw [e]

/-- Entry (t, 0, j) of the second result array: the row count of the global anchor row a = 256 t + j. -/
theorem cntArr_apply (V : (c : Dev nD) → (b : Ref sig .tc) → Buf (Elt Ideal) ((c : Thread nD τ).loc b)) (c : Dev nD)
    (t : Fin 32) (j : Fin 256) (a : Fin 8192) (ha : a.val = t.val * 256 + j.val) :
    (dat (F := Ideal) V c).arrAt 5 cfg0.N (ix3 t (0 : Fin 1) j)
      = Cert.Spec.rowCnt (fun k : Fin 256 => V c main_v7 (ix2 a k)) (fun (b : Fin 8192) (k : Fin 256) => V c main_v7 (ix2 b k))
          (V c main_v8 (ix2 a (0 : Fin 1))) (fun b : Fin 8192 => V c main_v9 (ix2 (0 : Fin 1) b)) a.val := by
  refine (congrFun (cntArr_final V c) (ix3 t (0 : Fin 1) j)).trans ?_
  have e : rowOf (ix3 t (0 : Fin 1) j) = a := Fin.ext (by show t.val * 256 + j.val = a.val; omega)
  unfold cntArr
  rw [e]

end Cert.KerVal

end
-- ==== Proof.KResult.lean ====
/-
  The value of the kernel program's result at the ideal instance: the mean, over the strictly positive
  losses, of the hinge losses of all (anchor, positive) pairs — the specification in the kernel's arrangement.
  The two result arrays hold, at block t and lane j, the row sum and the row count of anchor row 256·t + j;
  the host lines after the region add all of them up; summing over (t, j) is summing over the rows.
-/
import proofs.«140858_j40114994544729_2_alg».proof.Proof.KFrame
import proofs.«140858_j40114994544729_2_alg».proof.Proof.HostValue
import proofs.«140858_j40114994544729_2_alg».proof.Proof.KFinal

set_option maxRecDepth 16384

noncomputable section

namespace Cert.KerSide

open Cert.KernelIdeal Cert.KernelIdeal.Gen Cert.KernelIdeal.Fr
open Idealize.ShloMosaic Idealize.ShloMosaic.TcCoe Idealize.ShloMosaic.ValueIdx
open Idealize.SL Idealize.SL.Sem

/-- A sum over the 8192 rows is the sum over the 32 tiles of the sums over each tile's 256 rows. -/
theorem sum_rows_tiles {M : Type*} [AddCommMonoid M] (f : Fin 8192 → M) :
    ∑ a : Fin 8192, f a = ∑ t : Fin 32, ∑ j : Fin 256, f ⟨t.val * 256 + j.val, by have := t.isLt; have := j.isLt; omega⟩ := by
  have e1 : ∑ a : Fin 8192, f a = ∑ p : Fin 32 × Fin 256, f (finProdFinEquiv p) :=
    (Equiv.sum_comp (finProdFinEquiv (m := 32) (n := 256)) f).symm
  rw [e1, Fintype.sum_prod_type]
  refine Finset.sum_congr rfl fun t _ => Finset.sum_congr rfl fun j _ => congrArg f (Fin.ext ?_)
  show j.val + 256 * t.val = t.val * 256 + j.val
  omega

variable (m : (ℓ : Loc nD τ sig) → Buf (Elt Ideal) ℓ)

/-- The rows and the labels the kernel region finds are the normalised argument rows and the argument labels. -/
theorem rows_eq (c : Dev nD) (a : Fin 8192) (k : Fin 256) :
    V1 (F := Ideal) m c main_v7 (ix2 a k) = Cert.Spec.rowsOf (normE (m ((c : Thread nD τ).loc main_arg0))) a k := by
  show StableHlo.after (hostOps0 (F := Ideal)) (W0 m c) (Proc.devRef .tc main_v7) (ix2 a k) = _
  rw [head_v7]; rfl
theorem labcol_eq (c : Dev nD) (a : Fin 8192) :
    V1 (F := Ideal) m c main_v8 (ix2 a (0 : Fin 1)) = Cert.Spec.labsOf (m ((c : Thread nD τ).loc main_arg1)) a := by
  show StableHlo.after (hostOps0 (F := Ideal)) (W0 m c) (Proc.devRef .tc main_v8) (ix2 a (0 : Fin 1)) = _
  rw [head_v8]; rfl
theorem labrow_eq (c : Dev nD) (b : Fin 8192) :
    V1 (F := Ideal) m c main_v9 (ix2 (0 : Fin 1) b) = Cert.Spec.labsOf (m ((c : Thread nD τ).loc main_arg1)) b := by
  show StableHlo.after (hostOps0 (F := Ideal)) (W0 m c) (Proc.devRef .tc main_v9) (ix2 (0 : Fin 1) b) = _
  rw [head_v9]; rfl

/-- THE RESULT of the kernel program at the ideal instance. -/
theorem result_eq (c : Dev nD) :
    W4 (F := Ideal) m c main_v16 = fun _ => Cert.Spec.resultK (Cert.Spec.rowsOf (normE (m ((c : Thread nD τ).loc main_arg0)))) (Cert.Spec.labsOf (m ((c : Thread nD τ).loc main_arg1))) := by
  show StableHlo.after (hostOps1_1 (F := Ideal)) (StableHlo.after (hostOps1 (F := Ideal)) (W2 m c)) (Proc.devRef .tc main_v16) = _
  rw [tail_v16, W2_sum, W2_cnt]
  funext i
  unfold Cert.Spec.resultK Cert.Spec.totalK Cert.Spec.cntK
  rw [sum_rows_tiles, sum_rows_tiles]
  refine congrArg₂ Cert.Spec.fin ?_ ?_
  · refine Finset.sum_congr rfl fun t _ => Finset.sum_congr rfl fun j _ => ?_
    rw [Cert.KerVal.sumArr_apply (V1 m) c t j ⟨t.val * 256 + j.val, by have := t.isLt; have := j.isLt; omega⟩ rfl]
    exact congrFun (congr (congr (congr (congrArg Cert.Spec.rowSum (funext fun k => rows_eq m c _ k))
      (funext fun b => funext fun k => rows_eq m c b k)) (labcol_eq m c _)) (funext fun b => labrow_eq m c b)) _
  · refine Finset.sum_congr rfl fun t _ => Finset.sum_congr rfl fun j _ => ?_
    rw [Cert.KerVal.cntArr_apply (V1 m) c t j ⟨t.val * 256 + j.val, by have := t.isLt; have := j.isLt; omega⟩ rfl]
    exact congrFun (congr (congr (congr (congrArg Cert.Spec.rowCnt (funext fun k => rows_eq m c _ k))
      (funext fun b => funext fun k => rows_eq m c b k)) (labcol_eq m c _)) (funext fun b => labrow_eq m c b)) _

end Cert.KerSide

end
-- ==== Proof.Law.lean ====
/-
  The two arrangements of the triplet loss agree on the extended reals, with no finiteness assumption on the rows.

  Every clamped distance is at least 0 and so is the hardest negative h of a row (an infimum of distances and of
  10^9).  For a pair that is no positive pair the row-by-row arrangement puts -10^9 in place of the distance BEFORE
  the hinge: for a real h ≥ 0 the number (-10^9 - h) + 1 is negative, and for h = ⊤ the extended-real conventions give
  -10^9 - ⊤ = ⊥ and ⊥ + 1 = ⊥; either way the hinge max(·, 0) returns 0, which is what the other arrangement writes
  there AFTER the hinge.  On a positive pair the two write the same expression.  So the two tables of losses are equal
  entry by entry; hence the totals are equal, and the sum of the 0/1 indicators of the strictly positive entries is the
  number of such pairs.  The final mean, a quotient by max(count, 1) chosen when the count is positive, is then the
  same on both sides.
-/
import proofs.«140858_j40114994544729_2_alg».proof.Proof.Words

noncomputable section

namespace Cert.Spec

open Idealize.ShloMosaic

/-- A clamped distance is never negative. -/
theorem zero_le_distr (u v : Fin 256 → EReal) : 0 ≤ distr u v := by
  unfold distr; rw [zero_eq]; exact le_max_left _ _

/-- The stand-in for a row of the same label, 10^9, is not negative. -/
theorem zero_le_big : (0 : EReal) ≤ big := by
  rw [big_eq]; exact_mod_cast (by positivity : (0:ℝ) ≤ 10^9)

/-- The hardest negative is an infimum of non-negative numbers, so it is not negative (it may be ⊤). -/
theorem zero_le_hardr (u : Fin 256 → EReal) (e : Fin 8192 → Fin 256 → EReal) (la : BitVec 32) (lab : Fin 8192 → BitVec 32) :
    0 ≤ hardr u e la lab := by
  unfold hardr
  refine Finset.le_inf fun b _ => ?_
  split_ifs
  · exact zero_le_big
  · exact zero_le_distr _ _

/-- The hinge of a masked entry is zero: (-10^9 - h) + 1 ≤ 0 for every h ≥ 0, the case h = ⊤ included
    (-10^9 - ⊤ = ⊥, ⊥ + 1 = ⊥). -/
theorem masked_hinge (h : EReal) (hh : 0 ≤ h) : max ((nbig - h) + one) zero = zero := by
  rw [nbig_eq, one_eq, zero_eq]
  apply max_eq_right
  induction h using EReal.rec with
  | bot => exact absurd hh (by simp)
  | top => simp
  | coe r =>
    have hr : 0 ≤ r := by exact_mod_cast hh
    have : (((-(10^9) : ℝ) : EReal) - (r : EReal)) + 1 = ((-(10^9) - r + 1 : ℝ) : EReal) := by
      push_cast; rfl
    rw [this]
    exact_mod_cast (by linarith : -(10^9) - r + 1 ≤ (0:ℝ))

/-- Entry by entry the two tables of losses are the same: on a positive pair the same expression, elsewhere zero. -/
theorem lossKr_eq_lossR (e : Fin 8192 → Fin 256 → EReal) (lab : Fin 8192 → BitVec 32) (a b : Fin 8192) :
    lossKr (e a) e (lab a) lab a.val b = lossR e lab a b := by
  unfold lossKr lossR
  have hab : (a.val ≠ b.val) ↔ a ≠ b := by simp [Fin.ext_iff]
  by_cases hp : lab a = lab b ∧ a ≠ b
  · rw [if_pos hp, if_pos ⟨hp.1, hab.mpr hp.2⟩]
  · rw [if_neg hp, if_neg (fun h => hp ⟨h.1, hab.mp h.2⟩)]
    exact masked_hinge _ (zero_le_hardr _ _ _ _)

/-- The totals agree, term by term. -/
theorem totalK_eq_totalR (e : Fin 8192 → Fin 256 → EReal) (lab : Fin 8192 → BitVec 32) : totalK e lab = totalR e lab := by
  unfold totalK totalR rowSum
  exact Finset.sum_congr rfl fun a _ => Finset.sum_congr rfl fun b _ => lossKr_eq_lossR e lab a b

/-- The double sum of the 0/1 indicators is the number of pairs with a strictly positive loss. -/
theorem cntK_eq (e : Fin 8192 → Fin 256 → EReal) (lab : Fin 8192 → BitVec 32) : cntK e lab = ((cntR e lab : ℕ) : EReal) := by
  unfold cntK rowCnt cntR
  simp only [lossKr_eq_lossR]
  rw [Finset.card_filter, Fintype.sum_prod_type]
  push_cast
  rfl

/-- A natural number is positive as an extended real exactly when it is positive. -/
theorem zero_lt_natCast (n : ℕ) : (0 : EReal) < ((n : ℕ) : EReal) ↔ 0 < n := by
  rw [← EReal.coe_natCast, ← EReal.coe_zero, EReal.coe_lt_coe_iff]
  exact Nat.cast_pos

/-- Clamping a natural number below by one commutes with reading it as an extended real. -/
theorem max_natCast_one (n : ℕ) : max ((n : ℕ) : EReal) 1 = (((max n 1 : ℕ) : ℝ) : EReal) := by
  rw [← EReal.coe_natCast, ← EReal.coe_one, ← EReal.coe_strictMono.monotone.map_max]
  rw [Nat.cast_max, Nat.cast_one]

/-- The two arrangements of the whole result are equal. -/
theorem resultK_eq_resultR (e : Fin 8192 → Fin 256 → EReal) (lab : Fin 8192 → BitVec 32) : resultK e lab = resultR e lab := by
  unfold resultK resultR fin
  rw [totalK_eq_totalR, cntK_eq, zero_eq, one_eq, max_natCast_one]
  by_cases hn : 0 < cntR e lab
  · rw [if_pos hn, if_pos ((zero_lt_natCast _).mpr hn)]
  · rw [if_neg hn, if_neg (fun h => hn ((zero_lt_natCast _).mp h))]

end Cert.Spec

end
-- ==== Proof.RefVals.lean ====
/-
  The reference's value, stage by stage, as functions of arbitrary arrays: the normalised rows, the matrix of inner
  products, the clamped distances, the label masks, each anchor's hardest negative, the hinge losses, their count and
  their sum, and the mean over the active pairs. Each definition is the composed term of a stretch of the reference's
  host operations, over variables in place of the buffers the stretch reads.
-/
import proofs.«140858_j40114994544729_2_alg».proof.Proof.Gen.ReferenceIdeal
import Idealize.ShloMosaic.PureOps.Ideal

noncomputable section

namespace Cert.RefSide

open Idealize.ShloMosaic Idealize.ShloMosaic.TcCoe Idealize.SL.Sem Cert.ReferenceIdeal Cert.ReferenceIdeal.Gen

/-- rows normalised: x / max (sqrt (Σ_k x²)) 1e-12 — the first ten host operations, the term of main_v7 -/
def normE (x : FVec Ideal S8192x256 .f32) : FVec Ideal S8192x256 .f32 :=
  Host.divf (F := Ideal) x (broadcastInDim S8192x256 ![0, 1] bcast_S8192x1_S8192x256_0_1 (maximumf (Host.sqrt (F := Ideal) (broadcastInDim S8192x1 ![0] bcast_S8192_S8192x1_0 (Host.reduceAdd (F := Ideal) (mulf x x) (constant (F := Ideal) S_ .f32 0x00000000#32) reducesTo_S8192x256_S8192_d1 h_S_))) (broadcastInDim S8192x1 ![] bcast_S_S8192x1 (constant (F := Ideal) S_ .f32 0x2B8CBCCC#32))))

/-- the matrix of inner products of the rows: e · eᵀ -/
def simV (e : FVec Ideal S8192x256 .f32) : FVec Ideal S8192x8192 .f32 :=
  Host.dotGeneral (F := Ideal) dot_S8192x256_S256x8192_S8192x8192_1_0_0_1_n_n none e (transpose S256x8192 [1, 0] e transposes_S8192x256_S256x8192_1_0)

/-- the clamped distances: max 0 (1 - s) -/
def distV (s : FVec Ideal S8192x8192 .f32) : FVec Ideal S8192x8192 .f32 :=
  maximumf (broadcastInDim S8192x8192 ![] bcast_S_S8192x8192 (id (constant (F := Ideal) S_ .f32 0x00000000#32))) (subf (broadcastInDim S8192x8192 ![] bcast_S_S8192x8192 (constant (F := Ideal) S_ .f32 0x3F800000#32)) s)

/-- entry (a, b): the labels of b and a agree -/
def sameV (l : IVec S8192 32) : IVec S8192x8192 1 :=
  cmpi .eq (broadcastInDim S8192x8192 ![0, 1] bcast_S1x8192_S8192x8192_0_1 (broadcastInDim S1x8192 ![1] bcast_S8192_S1x8192_1 l)) (broadcastInDim S8192x8192 ![0, 1] bcast_S8192x1_S8192x8192_0_1 (broadcastInDim S8192x1 ![0] bcast_S8192_S8192x1_0 l))

/-- entry (a, b): a = b -/
def eyeV : IVec S8192x8192 1 :=
  cmpi .eq (addi (iotaInDim S8192x8192 32 0) (broadcastInDim S8192x8192 ![] bcast_S_S8192x8192 (constantI S_ 32 0#32))) (iotaInDim S8192x8192 32 1)

/-- the positive pairs: same label, off the diagonal -/
def posV (l : IVec S8192 32) : IVec S8192x8192 1 := andi (sameV l) (noti eyeV)

/-- the negative pairs: another label -/
def negV (l : IVec S8192 32) : IVec S8192x8192 1 := noti (sameV l)

/-- each anchor's least distance to a negative, the other entries counted as 1e9; the minimum from +∞ -/
def hardV (d : FVec Ideal S8192x8192 .f32) (ng : IVec S8192x8192 1) : FVec Ideal S8192 .f32 :=
  Host.reduce FloatOps.minimumf (select ng d (broadcastInDim S8192x8192 ![] bcast_S_S8192x8192 (id (constant (F := Ideal) S_ .f32 0x4E6E6B28#32)))) (constant (F := Ideal) S_ .f32 0x7F800000#32) reducesTo_S8192x8192_S8192_d1 h_S_

/-- the hinge max ((d - hard) + 1) 0 -/
def hingeV (d : FVec Ideal S8192x8192 .f32) (hd : FVec Ideal S8192 .f32) : FVec Ideal S8192x8192 .f32 :=
  maximumf (addf (subf d (broadcastInDim S8192x8192 ![0, 1] bcast_S8192x1_S8192x8192_0_1 (broadcastInDim S8192x1 ![0] bcast_S8192_S8192x1_0 hd))) (broadcastInDim S8192x8192 ![] bcast_S_S8192x8192 (constant (F := Ideal) S_ .f32 0x3F800000#32))) (broadcastInDim S8192x8192 ![] bcast_S_S8192x8192 (constant (F := Ideal) S_ .f32 0x00000000#32))

/-- the losses: the hinge on the positive pairs, zero elsewhere -/
def lossV (ps : IVec S8192x8192 1) (hg : FVec Ideal S8192x8192 .f32) : FVec Ideal S8192x8192 .f32 :=
  select ps hg (broadcastInDim S8192x8192 ![] bcast_S_S8192x8192 (id (constant (F := Ideal) S_ .f32 0x00000000#32)))

/-- the number of strictly positive losses, a 32-bit integer -/
def cntV (ls : FVec Ideal S8192x8192 .f32) : IVec S_ 32 :=
  Host.reduce IntOp.addi (extui 32 (cmpf .ogt ls (broadcastInDim S8192x8192 ![] bcast_S_S8192x8192 (constant (F := Ideal) S_ .f32 0x00000000#32))) natLt_1_32) (constantI S_ 32 0#32) reducesTo_S8192x8192_S_d0_1 h_S_

/-- the sum of the losses -/
def totV (ls : FVec Ideal S8192x8192 .f32) : FVec Ideal S_ .f32 :=
  Host.reduceAdd (F := Ideal) ls (constant (F := Ideal) S_ .f32 0x00000000#32) reducesTo_S8192x8192_S_d0_1 h_S_

/-- the mean over the active pairs, zero when there is none -/
def finV (c : IVec S_ 32) (t : FVec Ideal S_ .f32) : FVec Ideal S_ .f32 :=
  select (cmpi .sgt c (constantI S_ 32 0#32)) (Host.divf (F := Ideal) t (sitofp (F := Ideal) .f32 (maxsi c (constantI S_ 32 1#32)))) (id (constant (F := Ideal) S_ .f32 0x00000000#32))

/-- the whole result from the normalised rows and the labels -/
def resV (e : FVec Ideal S8192x256 .f32) (l : IVec S8192 32) : FVec Ideal S_ .f32 :=
  finV (cntV (lossV (posV l) (hingeV (distV (simV e)) (hardV (distV (simV e)) (negV l)))))
    (totV (lossV (posV l) (hingeV (distV (simV e)) (hardV (distV (simV e)) (negV l)))))

end Cert.RefSide

end
-- ==== Proof.RefStages.lean ====
/-
  The reference's 69 host operations read back in five stretches. The list of operations is the concatenation of the
  five stretches; the buffers after a concatenation are the buffers after the second list from the buffers after the
  first; and after each stretch, from ANY contents W of the buffers, the buffers it hands to the later stretches hold the
  stage functions of Proof/RefVals.lean of the buffers it reads, the others what they held. Composed: after the whole
  list the result buffer holds `resV` of the normalised rows and the labels, and the two arguments are unchanged.
-/
import proofs.«140858_j40114994544729_2_alg».proof.Proof.RunP
import proofs.«140858_j40114994544729_2_alg».proof.Proof.RefVals

noncomputable section

namespace Cert.RefSide

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- operations 1 … 12: the rows normalised, their transpose, the matrix of inner products -/
abbrev c1 : List (HloOp τ sig (Elt F)) :=
  [ binary main_arg0 main_arg0 main_v0 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v0 main_cst main_v1 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (Host.sqrt : (⟨S8192x1, .f32⟩ : BufTy).Contents (Elt F) → (⟨S8192x1, .f32⟩ : BufTy).Contents (Elt F)),
    nullary main_cst_0 (constant S_ .f32 0x2B8CBCCC#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (maximumf : (⟨S8192x1, .f32⟩ : BufTy).Contents (Elt F) → (⟨S8192x1, .f32⟩ : BufTy).Contents (Elt F) → (⟨S8192x1, .f32⟩ : BufTy).Contents (Elt F)),
    unary main_v5 main_v6 (broadcastInDim S8192x256 ![0, 1] bcast_S8192x1_S8192x256_0_1 : (⟨S8192x1, .f32⟩ : BufTy).Contents (Elt F) → (⟨S8192x256, .f32⟩ : BufTy).Contents (Elt F)),
    binary main_arg0 main_v6 main_v7 (Host.divf : (⟨S8192x256, .f32⟩ : BufTy).Contents (Elt F) → (⟨S8192x256, .f32⟩ : BufTy).Contents (Elt F) → (⟨S8192x256, .f32⟩ : BufTy).Contents (Elt F)),
    unary main_v7 main_v8 ((transpose S256x8192 [1, 0] · transposes_S8192x256_S256x8192_1_0) : (⟨S8192x256, .f32⟩ : BufTy).Contents (Elt F) → (⟨S256x8192, .f32⟩ : BufTy).Contents (Elt F)),
    binary main_v7 main_v8 main_v9 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) ]

/-- operations 13 … 19: the clamped distances -/
abbrev c2 : List (HloOp τ sig (Elt F)) :=
  [ nullary main_cst_1 (constant S_ .f32 0x3F800000#32),
    unary main_cst_1 main_v10 (broadcastInDim S8192x8192 ![] bcast_S_S8192x8192 : (⟨S_, .f32⟩ : BufTy).Contents (Elt F) → (⟨S8192x8192, .f32⟩ : BufTy).Contents (Elt F)),
    binary main_v10 main_v9 main_v11 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v11) (TRef.of (T := ⟨S8192x8192, .f32⟩) main_v12) maximumf ]

/-- operations 20 … 33: the label masks -/
abbrev c3 : List (HloOp τ sig (Elt F)) :=
  [ unary main_arg1 main_v13 (broadcastInDim S1x8192 ![1] bcast_S8192_S1x8192_1 : (⟨S8192, .i32⟩ : BufTy).Contents (Elt F) → (⟨S1x8192, .i32⟩ : BufTy).Contents (Elt F)),
    unary main_arg1 main_v14 (broadcastInDim S8192x1 ![0] bcast_S8192_S8192x1_0 : (⟨S8192, .i32⟩ : BufTy).Contents (Elt F) → (⟨S8192x1, .i32⟩ : BufTy).Contents (Elt F)),
    unary main_v13 main_v15 (broadcastInDim S8192x8192 ![0, 1] bcast_S1x8192_S8192x8192_0_1 : (⟨S1x8192, .i32⟩ : BufTy).Contents (Elt F) → (⟨S8192x8192, .i32⟩ : BufTy).Contents (Elt F)),
    unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    binary main_v15 main_v16 main_v17 (cmpi .eq : (⟨S8192x8192, .i32⟩ : BufTy).Contents (Elt F) → (⟨S8192x8192, .i32⟩ : BufTy).Contents (Elt F) → (⟨S8192x8192, .i1⟩ : BufTy).Contents (Elt F)),
    nullary main_v18 (iotaInDim S8192x8192 32 0),
    nullary main_v19 (iotaInDim S8192x8192 32 1),
    nullary main_c (constantI S_ 32 0#32),
    unary main_c main_v20 (broadcastInDim S8192x8192 ![] bcast_S_S8192x8192 : (⟨S_, .i32⟩ : BufTy).Contents (Elt F) → (⟨S8192x8192, .i32⟩ : BufTy).Contents (Elt F)),
    binary main_v18 main_v20 main_v21 (addi : (⟨S8192x8192, .i32⟩ : BufTy).Contents (Elt F) → (⟨S8192x8192, .i32⟩ : BufTy).Contents (Elt F) → (⟨S8192x8192, .i32⟩ : BufTy).Contents (Elt F)),
    binary main_v21 main_v19 main_v22 (cmpi .eq : (⟨S8192x8192, .i32⟩ : BufTy).Contents (Elt F) → (⟨S8192x8192, .i32⟩ : BufTy).Contents (Elt F) → (⟨S8192x8192, .i1⟩ : BufTy).Contents (Elt F)),
    unary main_v22 main_v23 (noti : (⟨S8192x8192, .i1⟩ : BufTy).Contents (Elt F) → (⟨S8192x8192, .i1⟩ : BufTy).Contents (Elt F)),
    binary main_v17 main_v23 main_v24 (andi : (⟨S8192x8192, .i1⟩ : BufTy).Contents (Elt F) → (⟨S8192x8192, .i1⟩ : BufTy).Contents (Elt F) → (⟨S8192x8192, .i1⟩ : BufTy).Contents (Elt F)),
    unary main_v17 main_v25 (noti : (⟨S8192x8192, .i1⟩ : BufTy).Contents (Elt F) → (⟨S8192x8192, .i1⟩ : BufTy).Contents (Elt F)) ]

/-- operations 34 … 48: the hardest negatives and the hinge -/
abbrev c4 : List (HloOp τ sig (Elt F)) :=
  [ nullary main_cst_3 (constant S_ .f32 0x4E6E6B28#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v25) (TRef.of (T := ⟨S8192x8192, .f32⟩) main_v12) (TRef.of (T := ⟨S8192x8192, .f32⟩) main_call1_v1) (TRef.of (T := ⟨S8192x8192, .f32⟩) main_v26) select,
    nullary main_cst_4 (constant S_ .f32 0x7F800000#32),
    binary main_v26 main_cst_4 main_v27 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x8192 ![0, 1] bcast_S8192x1_S8192x8192_0_1 : (⟨S8192x1, .f32⟩ : BufTy).Contents (Elt F) → (⟨S8192x8192, .f32⟩ : BufTy).Contents (Elt F)),
    binary main_v12 main_v29 main_v30 (subf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x3F800000#32),
    unary main_cst_5 main_v31 (broadcastInDim S8192x8192 ![] bcast_S_S8192x8192 : (⟨S_, .f32⟩ : BufTy).Contents (Elt F) → (⟨S8192x8192, .f32⟩ : BufTy).Contents (Elt F)),
    binary main_v30 main_v31 main_v32 (addf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x8192, .f32⟩) main_call2_v0) (broadcastInDim S8192x8192 ![] bcast_S_S8192x8192),
    TRef.binary (TRef.of (T := ⟨S8192x8192, .f32⟩) main_v32) (TRef.of (T := ⟨S8192x8192, .f32⟩) main_call2_v0) (TRef.of (T := ⟨S8192x8192, .f32⟩) main_v33) maximumf ]

/-- operations 49 … 52: the losses -/
abbrev c5 : List (HloOp τ sig (Elt F)) :=
  [ nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v24) (TRef.of (T := ⟨S8192x8192, .f32⟩) main_v33) (TRef.of (T := ⟨S8192x8192, .f32⟩) main_call3_v1) (TRef.of (T := ⟨S8192x8192, .f32⟩) main_v34) select ]

/-- operations 53 … 60: the count of the active pairs and the sum of the losses -/
abbrev c6 : List (HloOp τ sig (Elt F)) :=
  [ nullary main_cst_7 (constant S_ .f32 0x00000000#32),
    unary main_cst_7 main_v35 (broadcastInDim S8192x8192 ![] bcast_S_S8192x8192 : (⟨S_, .f32⟩ : BufTy).Contents (Elt F) → (⟨S8192x8192, .f32⟩ : BufTy).Contents (Elt F)),
    binary main_v34 main_v35 main_v36 (cmpf .ogt : (⟨S8192x8192, .f32⟩ : BufTy).Contents (Elt F) → (⟨S8192x8192, .f32⟩ : BufTy).Contents (Elt F) → (⟨S8192x8192, .i1⟩ : BufTy).Contents (Elt F)),
    unary main_v36 main_v37 ((extui 32 · natLt_1_32) : (⟨S8192x8192, .i1⟩ : BufTy).Contents (Elt F) → (⟨S8192x8192, .i32⟩ : BufTy).Contents (Elt F)),
    nullary main_c_8 (constantI S_ 32 0#32),
    binary main_v37 main_c_8 main_v38 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    nullary main_cst_9 (constant S_ .f32 0x00000000#32),
    binary main_v34 main_cst_9 main_v39 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

/-- operations 61 … 69: the mean over the active pairs -/
abbrev c7 : List (HloOp τ sig (Elt F)) :=
  [ nullary main_c_10 (constantI S_ 32 0#32),
    binary main_v38 main_c_10 main_v40 (cmpi .sgt : (⟨S_, .i32⟩ : BufTy).Contents (Elt F) → (⟨S_, .i32⟩ : BufTy).Contents (Elt F) → (⟨S_, .i1⟩ : BufTy).Contents (Elt F)),
    nullary main_c_11 (constantI S_ 32 1#32),
    binary main_v38 main_c_11 main_v41 (maxsi : (⟨S_, .i32⟩ : BufTy).Contents (Elt F) → (⟨S_, .i32⟩ : BufTy).Contents (Elt F) → (⟨S_, .i32⟩ : BufTy).Contents (Elt F)),
    unary main_v41 main_v42 (sitofp .f32 : (⟨S_, .i32⟩ : BufTy).Contents (Elt F) → (⟨S_, .f32⟩ : BufTy).Contents (Elt F)),
    binary main_v39 main_v42 main_v43 (Host.divf : (⟨S_, .f32⟩ : BufTy).Contents (Elt F) → (⟨S_, .f32⟩ : BufTy).Contents (Elt F) → (⟨S_, .f32⟩ : BufTy).Contents (Elt F)),
    nullary main_cst_12 (constant S_ .f32 0x00000000#32),
    TRef.unary (TRef.of (T := ⟨S_, .f32⟩) main_cst_12) (TRef.of (T := ⟨S_, .f32⟩) main_call4_v0) id,
    TRef.ternary (TRef.of (T := ⟨S_, .i1⟩) main_v40) (TRef.of (T := ⟨S_, .f32⟩) main_v43) (TRef.of (T := ⟨S_, .f32⟩) main_call4_v0) (TRef.of (T := ⟨S_, .f32⟩) main_v44) select ]

theorem ops_split : (ops (F := F)) = c1 ++ (c2 ++ (c3 ++ (c4 ++ (c5 ++ (c6 ++ c7))))) := rfl

/-- The buffers after two lists run in a row. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

variable (W : Valuation τ sig (Elt Ideal))

theorem s1_v9 : after (c1 (F := Ideal)) W (Proc.devRef .tc main_v9) = simV (normE (W (Proc.devRef .tc main_arg0))) := by
  after_results_simp <;> rfl
theorem s1_arg0 : after (c1 (F := Ideal)) W (Proc.devRef .tc main_arg0) = W (Proc.devRef .tc main_arg0) := by after_results_simp <;> rfl
theorem s1_arg1 : after (c1 (F := Ideal)) W (Proc.devRef .tc main_arg1) = W (Proc.devRef .tc main_arg1) := by after_results_simp <;> rfl

theorem s2_v12 : after (c2 (F := Ideal)) W (Proc.devRef .tc main_v12) = distV (W (Proc.devRef .tc main_v9)) := by
  after_results_simp <;> rfl
theorem s2_arg0 : after (c2 (F := Ideal)) W (Proc.devRef .tc main_arg0) = W (Proc.devRef .tc main_arg0) := by after_results_simp <;> rfl
theorem s2_arg1 : after (c2 (F := Ideal)) W (Proc.devRef .tc main_arg1) = W (Proc.devRef .tc main_arg1) := by after_results_simp <;> rfl

theorem s3_v24 : after (c3 (F := Ideal)) W (Proc.devRef .tc main_v24) = posV (W (Proc.devRef .tc main_arg1)) := by
  after_results_simp <;> rfl
theorem s3_v25 : after (c3 (F := Ideal)) W (Proc.devRef .tc main_v25) = negV (W (Proc.devRef .tc main_arg1)) := by
  after_results_simp <;> rfl
theorem s3_v12 : after (c3 (F := Ideal)) W (Proc.devRef .tc main_v12) = W (Proc.devRef .tc main_v12) := by after_results_simp <;> rfl
theorem s3_arg0 : after (c3 (F := Ideal)) W (Proc.devRef .tc main_arg0) = W (Proc.devRef .tc main_arg0) := by after_results_simp <;> rfl
theorem s3_arg1 : after (c3 (F := Ideal)) W (Proc.devRef .tc main_arg1) = W (Proc.devRef .tc main_arg1) := by after_results_simp <;> rfl

theorem s4_v33 : after (c4 (F := Ideal)) W (Proc.devRef .tc main_v33) = hingeV (W (Proc.devRef .tc main_v12)) (hardV (W (Proc.devRef .tc main_v12)) (W (Proc.devRef .tc main_v25))) := by
  after_results_simp <;> rfl
theorem s4_v24 : after (c4 (F := Ideal)) W (Proc.devRef .tc main_v24) = W (Proc.devRef .tc main_v24) := by after_results_simp <;> rfl
theorem s4_arg0 : after (c4 (F := Ideal)) W (Proc.devRef .tc main_arg0) = W (Proc.devRef .tc main_arg0) := by after_results_simp <;> rfl
theorem s4_arg1 : after (c4 (F := Ideal)) W (Proc.devRef .tc main_arg1) = W (Proc.devRef .tc main_arg1) := by after_results_simp <;> rfl

theorem s5_v34 : after (c5 (F := Ideal)) W (Proc.devRef .tc main_v34) = lossV (W (Proc.devRef .tc main_v24)) (W (Proc.devRef .tc main_v33)) := by
  after_results_simp <;> rfl
theorem s5_arg0 : after (c5 (F := Ideal)) W (Proc.devRef .tc main_arg0) = W (Proc.devRef .tc main_arg0) := by after_results_simp <;> rfl
theorem s5_arg1 : after (c5 (F := Ideal)) W (Proc.devRef .tc main_arg1) = W (Proc.devRef .tc main_arg1) := by after_results_simp <;> rfl

theorem s6_v38 : after (c6 (F := Ideal)) W (Proc.devRef .tc main_v38) = cntV (W (Proc.devRef .tc main_v34)) := by
  after_results_simp <;> rfl
theorem s6_v39 : after (c6 (F := Ideal)) W (Proc.devRef .tc main_v39) = totV (W (Proc.devRef .tc main_v34)) := by
  after_results_simp <;> rfl
theorem s6_arg0 : after (c6 (F := Ideal)) W (Proc.devRef .tc main_arg0) = W (Proc.devRef .tc main_arg0) := by after_results_simp <;> rfl
theorem s6_arg1 : after (c6 (F := Ideal)) W (Proc.devRef .tc main_arg1) = W (Proc.devRef .tc main_arg1) := by after_results_simp <;> rfl

theorem s7_v44 : after (c7 (F := Ideal)) W (Proc.devRef .tc main_v44) = finV (W (Proc.devRef .tc main_v38)) (W (Proc.devRef .tc main_v39)) := by
  after_results_simp <;> rfl
theorem s7_arg0 : after (c7 (F := Ideal)) W (Proc.devRef .tc main_arg0) = W (Proc.devRef .tc main_arg0) := by after_results_simp <;> rfl
theorem s7_arg1 : after (c7 (F := Ideal)) W (Proc.devRef .tc main_arg1) = W (Proc.devRef .tc main_arg1) := by after_results_simp <;> rfl

/-- After the whole list, from any contents: the result buffer holds `resV` of the normalised rows and the labels, and the
    two arguments hold what they held. -/
theorem after_all (V : Valuation τ sig (Elt Ideal)) :
    after (ops (F := Ideal)) V (Proc.devRef .tc main_v44) = resV (normE (V (Proc.devRef .tc main_arg0))) (V (Proc.devRef .tc main_arg1))
    ∧ after (ops (F := Ideal)) V (Proc.devRef .tc main_arg0) = V (Proc.devRef .tc main_arg0)
    ∧ after (ops (F := Ideal)) V (Proc.devRef .tc main_arg1) = V (Proc.devRef .tc main_arg1) := by
  rw [ops_split]
  simp only [after_append]
  refine ⟨?_, ?_, ?_⟩
  · rw [s7_v44, s6_v38, s6_v39, s5_v34, s4_v24, s4_v33, s3_v24, s3_v25, s3_v12, s2_v12, s2_arg1, s1_v9, s1_arg1]
    rfl
  · rw [s7_arg0, s6_arg0, s5_arg0, s4_arg0, s3_arg0, s2_arg0, s1_arg0]
  · rw [s7_arg1, s6_arg1, s5_arg1, s4_arg1, s3_arg1, s2_arg1, s1_arg1]

end Cert.RefSide

end
-- ==== Proof.RefLayout.lean ====
/-
  The layout operations of the reference read at an index: a scalar broadcast to the square reads the scalar; a vector
  laid along the rows (columns) of the square and broadcast reads the vector at the column (row) number; the transpose
  of the [8192, 256] array reads the array at the swapped index; the host product of an [8192, 256] array with a
  [256, 8192] array is, at the extended reals, the sum over the 256 common coordinates of the products.
-/
import proofs.«140858_j40114994544729_2_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

namespace Cert.RefSide

open Idealize.ShloMosaic Idealize.ShloMosaic.TcCoe Idealize.SL.Sem Cert.ReferenceIdeal Cert.ReferenceIdeal.Gen
open Idealize.ShloMosaic.ValueIdx

variable {α : Type}

/-- a scalar broadcast to the square reads the scalar -/
theorem bc_scalar (x : S_.Idx → α) (j : S8192x8192.Idx) :
    broadcastInDim S8192x8192 ![] bcast_S_S8192x8192 x j = x ix0 :=
  broadcastInDim_scalar_apply bcast_S_S8192x8192 x j

/-- a vector laid along a row and broadcast down the rows reads the vector at the column number -/
theorem bc_row (l : S8192.Idx → α) (a b : Fin 8192) :
    broadcastInDim S8192x8192 ![0, 1] bcast_S1x8192_S8192x8192_0_1 (broadcastInDim S1x8192 ![1] bcast_S8192_S1x8192_1 l) (ix2 a b) = l (ix1 b) := by
  refine (broadcastInDim_apply _ bcast_S1x8192_S8192x8192_0_1 _ (ix2 a b) (ix2 (0 : Fin 1) b) (fun c => match c with
    | ⟨0, _⟩ => by show 0 = if (1 : Nat) = 1 then 0 else a.val; rw [if_pos rfl]
    | ⟨1, _⟩ => by show b.val = if (8192 : Nat) = 1 then 0 else b.val; rw [if_neg (by decide)])).trans ?_
  exact broadcastInDim_apply _ bcast_S8192_S1x8192_1 l (ix2 (0 : Fin 1) b) (ix1 b) (fun c => match c with
    | ⟨0, _⟩ => by show b.val = if (8192 : Nat) = 1 then 0 else b.val; rw [if_neg (by decide)])

/-- a vector laid along a column and broadcast along the columns reads the vector at the row number -/
theorem bc_col (l : S8192.Idx → α) (a b : Fin 8192) :
    broadcastInDim S8192x8192 ![0, 1] bcast_S8192x1_S8192x8192_0_1 (broadcastInDim S8192x1 ![0] bcast_S8192_S8192x1_0 l) (ix2 a b) = l (ix1 a) := by
  refine (broadcastInDim_apply _ bcast_S8192x1_S8192x8192_0_1 _ (ix2 a b) (ix2 a (0 : Fin 1)) (fun c => match c with
    | ⟨0, _⟩ => by show a.val = if (8192 : Nat) = 1 then 0 else a.val; rw [if_neg (by decide)]
    | ⟨1, _⟩ => by show 0 = if (1 : Nat) = 1 then 0 else b.val; rw [if_pos rfl])).trans ?_
  exact broadcastInDim_apply _ bcast_S8192_S8192x1_0 l (ix2 a (0 : Fin 1)) (ix1 a) (fun c => match c with
    | ⟨0, _⟩ => by show a.val = if (8192 : Nat) = 1 then 0 else a.val; rw [if_neg (by decide)])

/-- the transpose read at (k, b) is the array at (b, k) -/
theorem transpose_ix (e : S8192x256.Idx → α) (k : Fin 256) (b : Fin 8192) :
    transpose S256x8192 [1, 0] e transposes_S8192x256_S256x8192_1_0 (ix2 k b) = e (ix2 b k) :=
  transpose_apply [1, 0] e transposes_S8192x256_S256x8192_1_0 (ix2 k b) (ix2 b k) (fun c => match c with
    | ⟨0, _⟩ => rfl
    | ⟨1, _⟩ => rfl)

/-- the host product at (a, b), at the extended reals: Σ_k e[a,k] · f[k,b] -/
theorem dot_ix (e : FVec Ideal S8192x256 .f32) (f : FVec Ideal S256x8192 .f32) (a b : Fin 8192) :
    Host.dotGeneral (F := Ideal) dot_S8192x256_S256x8192_S8192x8192_1_0_0_1_n_n none e f (ix2 a b)
      = ∑ k : Fin 256, e (ix2 a k) * f (ix2 k b) := by
  simp only [Host.dotGeneral]
  rw [Ideal.dotGeneral_apply, ← Equiv.sum_comp (ValueIdx.contrEquiv1 dot_S8192x256_S256x8192_S8192x8192_1_0_0_1_n_n 256 rfl rfl).symm]
  refine Finset.sum_congr rfl fun k _ => ?_
  have hk := ValueIdx.contrEquiv1_symm_val dot_S8192x256_S256x8192_S8192x8192_1_0_0_1_n_n 256 rfl rfl k
  have el : dot_S8192x256_S256x8192_S8192x8192_1_0_0_1_n_n.lhsIdx (ix2 a b) ((ValueIdx.contrEquiv1 dot_S8192x256_S256x8192_S8192x8192_1_0_0_1_n_n 256 rfl rfl).symm k) = ix2 a k := funext fun c => Fin.ext (by
    match c with
    | ⟨0, _⟩ =>
      show (dot_S8192x256_S256x8192_S8192x8192_1_0_0_1_n_n.lhsIdx (ix2 a b) _ 0).val = a.val
      unfold DotDims.lhsIdx
      rw [dif_neg (show ¬(0 : Fin S8192x256.rank) ∈ dot_S8192x256_S256x8192_S8192x8192_1_0_0_1_n_n.lhsBatch by decide), dif_pos (show (0 : Fin S8192x256.rank) ∈ dot_S8192x256_S256x8192_S8192x8192_1_0_0_1_n_n.lhsNonContracting by decide)]
      rfl
    | ⟨1, _⟩ => exact (dot_S8192x256_S256x8192_S8192x8192_1_0_0_1_n_n.lhsIdx_val_of_single rfl (ix2 a b) _).trans hk)
  have er : dot_S8192x256_S256x8192_S8192x8192_1_0_0_1_n_n.rhsIdx (ix2 a b) ((ValueIdx.contrEquiv1 dot_S8192x256_S256x8192_S8192x8192_1_0_0_1_n_n 256 rfl rfl).symm k) = ix2 k b := funext fun c => Fin.ext (by
    match c with
    | ⟨0, _⟩ => exact (dot_S8192x256_S256x8192_S8192x8192_1_0_0_1_n_n.rhsIdx_val_of_single rfl (ix2 a b) _).trans hk
    | ⟨1, _⟩ =>
      show (dot_S8192x256_S256x8192_S8192x8192_1_0_0_1_n_n.rhsIdx (ix2 a b) _ 1).val = b.val
      unfold DotDims.rhsIdx
      rw [dif_neg (show ¬(1 : Fin S256x8192.rank) ∈ dot_S8192x256_S256x8192_S8192x8192_1_0_0_1_n_n.rhsBatch by decide), dif_pos (show (1 : Fin S256x8192.rank) ∈ dot_S8192x256_S256x8192_S8192x8192_1_0_0_1_n_n.rhsNonContracting by decide)]
      rfl)
  rw [el, er]

end Cert.RefSide

end
-- ==== Proof.RefMath1.lean ====
/-
  The stage functions read at an index. At entry (a, b): the matrix of inner products is the inner product of rows a
  and b; the clamped distance is max 0 (1 - s); the label masks say "the labels agree", "a = b" (row and column numbers
  below 8192 as 32-bit words), "a positive pair", "a negative pair"; the hinge is max ((d - hard a) + 1) 0 and the loss
  the hinge on the positive pairs, zero elsewhere. Composed, in the words of the specification: the distance is
  `distr` of the two rows and the loss `lossR`, given that the hardest negatives are `hardr`.
-/
import proofs.«140858_j40114994544729_2_alg».proof.Proof.RefVals
import proofs.«140858_j40114994544729_2_alg».proof.Proof.RefLayout
import proofs.«140858_j40114994544729_2_alg».proof.Proof.Spec
import Idealize.ShloMosaic.Lib.Affine

noncomputable section

namespace Cert.RefSide

open Idealize.ShloMosaic Idealize.ShloMosaic.TcCoe Idealize.SL.Sem Cert.ReferenceIdeal Cert.ReferenceIdeal.Gen
open Idealize.ShloMosaic.ValueIdx Cert.Spec

variable (e : FVec Ideal S8192x256 .f32) (l : IVec S8192 32)

/-- entry (a, b) of e · eᵀ is the inner product of rows a and b -/
theorem simV_apply (a b : Fin 8192) : simV e (ix2 a b) = simr (rowsOf e a) (rowsOf e b) := by
  unfold simV
  rw [dot_ix]
  unfold simr rowsOf
  refine Finset.sum_congr rfl fun k _ => ?_
  rw [transpose_ix]

/-- the clamped distance at an index -/
theorem distV_apply (s : FVec Ideal S8192x8192 .f32) (j : S8192x8192.Idx) : distV s j = max zero (one - s j) := by
  unfold distV
  show max (_ : EReal) ((_ : EReal) - s j) = _
  rw [bc_scalar, bc_scalar]; rfl

/-- the distance of rows a and b -/
theorem dist_apply (a b : Fin 8192) : distV (simV e) (ix2 a b) = distr (rowsOf e a) (rowsOf e b) := by
  rw [distV_apply, simV_apply]; rfl

/-- the complement of a one-bit word is set exactly when the word is not -/
theorem not1_iff (c : BitVec 1) : ~~~c = 1#1 ↔ ¬ c = 1#1 := by revert c; decide

/-- entry (a, b) of the label comparison: the labels of b and a agree -/
theorem sameV_iff (a b : Fin 8192) : sameV l (ix2 a b) = 1#1 ↔ labsOf l b = labsOf l a := by
  unfold sameV labsOf
  show IntOp.cmpi .eq (_ : BitVec 32) (_ : BitVec 32) = 1#1 ↔ _
  rw [bc_row, bc_col]; exact IntOp.cmpi_eq

/-- entry (a, b) of the diagonal mask: the words of the row and column numbers agree exactly when a = b -/
theorem eyeV_iff (a b : Fin 8192) : eyeV (ix2 a b) = 1#1 ↔ a = b := by
  unfold eyeV
  show IntOp.cmpi .eq (IntOp.addi (BitVec.ofNat 32 a.val) (broadcastInDim S8192x8192 ![] bcast_S_S8192x8192 (constantI S_ 32 0#32) (ix2 a b))) (BitVec.ofNat 32 b.val) = 1#1 ↔ _
  rw [bc_scalar, IntOp.cmpi_eq]
  show BitVec.ofNat 32 a.val + 0#32 = BitVec.ofNat 32 b.val ↔ _
  rw [BitVec.add_zero]
  have ha := a.isLt; have hb := b.isLt
  constructor
  · intro h
    have h2 := congrArg BitVec.toNat h
    rw [BitVec.toNat_ofNat, BitVec.toNat_ofNat, Nat.mod_eq_of_lt (by omega), Nat.mod_eq_of_lt (by omega)] at h2
    exact Fin.ext h2
  · rintro rfl; rfl

/-- a positive pair: the same label, off the diagonal -/
theorem posV_iff (a b : Fin 8192) : posV l (ix2 a b) = 1#1 ↔ (labsOf l a = labsOf l b ∧ a ≠ b) := by
  unfold posV
  show IntOp.andi (sameV l (ix2 a b)) (~~~(eyeV (ix2 a b))) = 1#1 ↔ _
  rw [IntOp.andi_eq_one, not1_iff, sameV_iff, eyeV_iff]
  exact ⟨fun h => ⟨h.1.symm, h.2⟩, fun h => ⟨h.1.symm, h.2⟩⟩

/-- a negative pair: another label -/
theorem negV_iff (a b : Fin 8192) : negV l (ix2 a b) = 1#1 ↔ ¬ labsOf l a = labsOf l b := by
  unfold negV
  show ~~~(sameV l (ix2 a b)) = 1#1 ↔ _
  rw [not1_iff, sameV_iff]
  exact ⟨fun h h' => h h'.symm, fun h h' => h h'.symm⟩

/-- the hinge at entry (a, b) -/
theorem hingeV_apply (d : FVec Ideal S8192x8192 .f32) (hd : FVec Ideal S8192 .f32) (a b : Fin 8192) :
    hingeV d hd (ix2 a b) = max ((d (ix2 a b) - hd (ix1 a)) + one) zero := by
  unfold hingeV
  show max ((d (ix2 a b) - (_ : EReal)) + (_ : EReal)) (_ : EReal) = _
  rw [bc_col, bc_scalar, bc_scalar]; rfl

/-- the loss at an index: the hinge where the mask is set, zero elsewhere -/
theorem lossV_apply (ps : IVec S8192x8192 1) (hg : FVec Ideal S8192x8192 .f32) (j : S8192x8192.Idx) :
    lossV ps hg j = if ps j = 1#1 then hg j else zero := by
  unfold lossV
  show (if ps j = 1 then hg j else (_ : EReal)) = _
  rw [bc_scalar]; rfl

/-- the masked distance at an index: the distance where the mask is set, 1e9 elsewhere -/
theorem maskedV_apply (ng : IVec S8192x8192 1) (d : FVec Ideal S8192x8192 .f32) (j : S8192x8192.Idx) :
    select ng d (broadcastInDim S8192x8192 ![] bcast_S_S8192x8192 (id (constant (F := Ideal) S_ .f32 0x4E6E6B28#32))) j
      = if ng j = 1#1 then d j else big := by
  show (if ng j = 1 then d j else (_ : EReal)) = _
  rw [bc_scalar]; rfl

end Cert.RefSide

end
-- ==== Proof.RefMath2.lean ====
/-
  The three reductions of the reference and its last scalar steps, in the words of the specification. Each anchor's
  minimum over the columns from +∞, a fold of min in whatever order, is the infimum over the columns (`hardr`); the
  float sum over both axes into a scalar is the double sum (`totalR`); and for a count N below 2^31 held as a 32-bit
  word, "the word is greater than 0, signed" is 0 < N, the signed maximum with 1 is the word of max N 1, and its
  conversion to a float is the real number max N 1: the last select is the mean over the active pairs.
-/
import proofs.«140858_j40114994544729_2_alg».proof.Proof.RefMath1
import Idealize.ShloMosaic.PureOps.Reduce
import Idealize.ShloMosaic.PureOps.Ideal.Laws
import Idealize.ShloMosaic.Lib.IdealHost

noncomputable section

namespace Cert.RefSide

open Idealize.ShloMosaic Idealize.ShloMosaic.TcCoe Idealize.SL.Sem Cert.ReferenceIdeal Cert.ReferenceIdeal.Gen
open Idealize.ShloMosaic.ValueIdx Cert.Spec

/-- a fold of min from ⊤ over a finite set, in any order, is the infimum over the set -/
theorem fold_minimumf_eq_inf {ι : Type} (s : Finset ι) (g : ι → EReal) (i0 : EReal) (h0 : i0 = ⊤) :
    s.fold (FloatOps.minimumf (F := Ideal) (φ := .f32)) i0 g = s.inf g := by
  classical
  subst h0
  induction s using Finset.induction_on with
  | empty => rw [Finset.fold_empty, Finset.inf_empty]
  | insert a s ha ih =>
    rw [Finset.fold_insert ha, Finset.inf_insert, ih]
    first | rfl | exact inf_eq_min.symm

/-- the row index a with column k put back is (a, k) -/
theorem lift_row (h : S8192x8192.Reduces [1] S8192) (a : Fin 8192) (k : Fin (S8192x8192.size 1)) :
    h.lift (ix1 a) k = ix2 a (⟨k.val, k.isLt⟩ : Fin 8192) := by
  funext c; apply Fin.ext
  fin_cases c <;> rfl

/-- each anchor's hardest negative: the infimum over the columns of the masked distances -/
theorem hardV_apply (d : FVec Ideal S8192x8192 .f32) (ng : IVec S8192x8192 1) (a : Fin 8192) :
    hardV d ng (ix1 a) = Finset.univ.inf fun b : Fin 8192 => if ng (ix2 a b) = 1#1 then d (ix2 a b) else big := by
  have h : S8192x8192.Reduces [1] S8192 := by decide
  have htop : Ideal.ofBits .f32 0x7F800000#32 = ⊤ := by simp [Ideal.ofBits, Ideal.ieee]
  unfold hardV
  refine (Host.reduce_eq_fold_single FloatOps.minimumf _ _ reducesTo_S8192x8192_S8192_d1 h h_S_ (ix1 a)).trans ?_
  refine (fold_minimumf_eq_inf _ _ _ htop).trans ?_
  have hf : ((select ng d (broadcastInDim S8192x8192 ![] bcast_S_S8192x8192 (id (constant (F := Ideal) S_ .f32 0x4E6E6B28#32)))) ∘ h.lift (ix1 a))
      = fun b : Fin 8192 => if ng (ix2 a b) = 1#1 then d (ix2 a b) else big :=
    funext fun k => (congrArg (select ng d (broadcastInDim S8192x8192 ![] bcast_S_S8192x8192 (id (constant (F := Ideal) S_ .f32 0x4E6E6B28#32)))) (lift_row h a k)).trans (maskedV_apply ng d _)
  exact congrArg (fun f => Finset.inf (Finset.univ : Finset (Fin 8192)) f) hf

/-- the float sum over both axes into the scalar is the double sum -/
theorem totV_apply (ls : FVec Ideal S8192x8192 .f32) : totV ls ix0 = ∑ a : Fin 8192, ∑ b : Fin 8192, ls (ix2 a b) := by
  unfold totV
  refine (hostReduceAdd_apply ls _ reducesTo_S8192x8192_S_d0_1 h_S_ ix0).trans ?_
  rw [Ideal.hostReduceAdd_total reducesTo_S8192x8192_S_d0_1 (fun b => b.elim0), sum_idx2]
  show Ideal.ofBits .f32 0x00000000#32 + _ = _
  rw [Ideal.ofBits_zero_f32, zero_add]

/-- the word of a natural below 2^31 reads, signed, as that natural -/
theorem toInt_ofNat_lt (N : ℕ) (hN : N < 2 ^ 31) : (BitVec.ofNat 32 N).toInt = (N : ℤ) := by
  have hn : (BitVec.ofNat 32 N).toNat = N := by rw [BitVec.toNat_ofNat]; omega
  rw [BitVec.toInt_eq_toNat_of_lt (by rw [hn]; omega), hn]

/-- the signed maximum with 1 of the word of N reads, signed, as max N 1 -/
theorem toInt_maxsi_one (N : ℕ) (hN : N < 2 ^ 31) : (IntOp.maxsi (BitVec.ofNat 32 N) 1#32).toInt = ((max N 1 : ℕ) : ℤ) := by
  have h1 : (1#32 : BitVec 32).toInt = 1 := by decide
  unfold IntOp.maxsi
  by_cases h : 1 < N
  · have hs : (1#32 : BitVec 32).slt (BitVec.ofNat 32 N) = true := by
      rw [BitVec.slt_iff_toInt_lt, h1, toInt_ofNat_lt N hN]; exact_mod_cast h
    rw [if_pos hs, toInt_ofNat_lt N hN, Nat.max_eq_left (by omega)]
  · have hs : ¬ (1#32 : BitVec 32).slt (BitVec.ofNat 32 N) = true := by
      rw [BitVec.slt_iff_toInt_lt, h1, toInt_ofNat_lt N hN]; intro h'; exact h (by exact_mod_cast h')
    rw [if_neg hs, h1, Nat.max_eq_right (by omega)]; rfl

/-- the last select: the mean over the active pairs for a count below 2^31 -/
theorem finV_apply (c : IVec S_ 32) (t : FVec Ideal S_ .f32) (N : ℕ) (hN : N < 2 ^ 31) (hc : c ix0 = BitVec.ofNat 32 N) :
    finV c t ix0 = if 0 < N then Ideal.div (t ix0) (((max N 1 : ℕ) : ℝ) : EReal) else zero := by
  unfold finV
  show (if IntOp.cmpi .sgt (c ix0) (0#32) = 1#1 then Ideal.div (t ix0) (((IntOp.maxsi (c ix0) 1#32).toInt : ℝ) : EReal) else Ideal.ofBits .f32 0x00000000#32) = _
  rw [hc, toInt_maxsi_one N hN]
  have hz : (0#32 : BitVec 32).toInt = 0 := by decide
  by_cases h : 0 < N
  · have hp : IntOp.cmpi .sgt (BitVec.ofNat 32 N) (0#32) = 1#1 := by
      rw [IntOp.cmpi_sgt, hz, toInt_ofNat_lt N hN]; exact_mod_cast h
    rw [if_pos hp, if_pos h]; norm_cast
  · have hp : ¬ IntOp.cmpi .sgt (BitVec.ofNat 32 N) (0#32) = 1#1 := by
      rw [IntOp.cmpi_sgt, hz, toInt_ofNat_lt N hN]; intro h'; exact h (by exact_mod_cast h')
    rw [if_neg hp, if_neg h]; rfl

end Cert.RefSide

end
-- ==== Proof.RefCount.lean ====
/-
  The reference's count of the strictly positive losses is the number of such pairs, as a 32-bit word.

  The count is an integer sum, over every entry of the [8192, 8192] array of losses, of the one-bit word "the entry is
  above 0" widened to 32 bits.  A sum by two's-complement addition, from zero, of widened 0/1 words is the number of the
  ones among them, as a word; the bit is one exactly when 0 < the entry; and the entries of the square are in bijection
  with the pairs (a, b) of their coordinates.
-/
import proofs.«140858_j40114994544729_2_alg».proof.Proof.RefVals
import proofs.«140858_j40114994544729_2_alg».proof.Proof.RefLayout
import proofs.«140858_j40114994544729_2_alg».proof.Proof.Spec
import Idealize.ShloMosaic.Lib.IndicatorCount
import Idealize.ShloMosaic.PureOps.Reduce

noncomputable section

namespace Cert.RefSide

open Idealize.ShloMosaic Idealize.ShloMosaic.ValueIdx Cert.ReferenceIdeal Cert.ReferenceIdeal.Gen Cert.Spec

/-- The bit of "x is above y" is one exactly when y < x. -/
theorem cmp_ogt_eq_one (x y : EReal) : Ideal.cmp .ogt x y = 1#1 ↔ y < x := by
  unfold Ideal.cmp
  by_cases h : y < x
  · simp [h]
  · simp [h]

/-- The count word is the number of pairs (a, b) whose loss is strictly positive. -/
theorem cntV_apply (ls : FVec Ideal S8192x8192 .f32) :
    cntV ls ix0 = BitVec.ofNat 32 (Finset.univ.filter fun p : Fin 8192 × Fin 8192 => zero < ls (ix2 p.1 p.2)).card := by
  unfold cntV
  -- the reduce over both axes into the scalar is the fold over every index of the square, in any order
  refine (Host.reduce_eq_fold IntOp.addi _ _ reducesTo_S8192x8192_S_d0_1 h_S_ ix0).trans ?_
  rw [Finset.filter_true_of_mem (fun i _ => eq_ix0 _)]
  -- the summand at k is the widened bit of "0 < ls k"
  have hop : (extui 32 (cmpf .ogt ls (broadcastInDim S8192x8192 ![] bcast_S_S8192x8192 (constant (F := Ideal) S_ .f32 0x00000000#32))) natLt_1_32 : S8192x8192.Idx → BitVec 32)
      = fun k => (Ideal.cmp .ogt (ls k) zero).setWidth 32 := by
    funext k
    rw [extui_apply, cmpf_apply, bc_scalar]
    rfl
  rw [hop]
  rw [show constantI S_ 32 (0#32) (Shape.Idx.first h_S_) = 0#32 from rfl]
  -- a sum of widened 0/1 words is the number of the ones
  rewrite [IndicatorCount.fold_addi_setWidth_eq_card]
  refine congrArg (BitVec.ofNat 32) ?_
  -- the entries of the square against the pairs of coordinates
  refine Finset.card_equiv (idxEquiv2 (n0 := 8192) (n1 := 8192)) fun k => ?_
  have hk : ls (ix2 (n0 := 8192) (n1 := 8192) (k 0) (k 1)) = ls k := congrArg ls (eq_ix2 (n0 := 8192) (n1 := 8192) k).symm
  rw [Finset.mem_filter, Finset.mem_filter, cmp_ogt_eq_one]
  simp only [Finset.mem_univ, true_and]
  exact ⟨fun h => lt_of_lt_of_eq h hk.symm, fun h => lt_of_lt_of_eq h hk⟩

end Cert.RefSide

end
-- ==== Proof.RefMath3.lean ====
/-
  The reference's value is the specification's `resultR`. With e the normalised rows and lab the labels: the masked
  minimum of each anchor's row of distances is `hardr` (a negative pair keeps its distance, the others count as 1e9);
  the loss at (a, b) is `lossR`; the integer count of the positive losses is the word of `cntR`, a number at most
  8192 · 8192 = 2^26, below 2^31; the float sum is `totalR`; and the last select is the mean over the active pairs,
  zero when there is none.
-/
import proofs.«140858_j40114994544729_2_alg».proof.Proof.RefMath2
import proofs.«140858_j40114994544729_2_alg».proof.Proof.RefCount

noncomputable section

namespace Cert.RefSide

open Idealize.ShloMosaic Idealize.ShloMosaic.TcCoe Idealize.SL.Sem Cert.ReferenceIdeal Cert.ReferenceIdeal.Gen
open Idealize.ShloMosaic.ValueIdx Cert.Spec

variable (e : FVec Ideal S8192x256 .f32) (l : IVec S8192 32)

/-- each anchor's hardest negative is the specification's -/
theorem hard_apply (a : Fin 8192) :
    hardV (distV (simV e)) (negV l) (ix1 a) = hardr (rowsOf e a) (rowsOf e) (labsOf l a) (labsOf l) := by
  rw [hardV_apply]
  unfold hardr
  refine congrArg (Finset.inf Finset.univ) (funext fun b => ?_)
  rw [dist_apply]
  by_cases h : labsOf l a = labsOf l b
  · rw [if_neg (fun hn => (negV_iff l a b).1 hn h), if_pos h]
  · rw [if_pos ((negV_iff l a b).2 h), if_neg h]

/-- the loss at (a, b) is the specification's -/
theorem loss_apply (a b : Fin 8192) :
    lossV (posV l) (hingeV (distV (simV e)) (hardV (distV (simV e)) (negV l))) (ix2 a b) = lossR (rowsOf e) (labsOf l) a b := by
  rw [lossV_apply, hingeV_apply, dist_apply, hard_apply]
  unfold lossR
  by_cases h : labsOf l a = labsOf l b ∧ a ≠ b
  · rw [if_pos ((posV_iff l a b).2 h), if_pos h]
  · rw [if_neg (fun hn => h ((posV_iff l a b).1 hn)), if_neg h]

/-- the number of positive losses is at most the number of pairs, 2^26 -/
theorem cntR_lt (r : Fin 8192 → Fin 256 → EReal) (lab : Fin 8192 → BitVec 32) : cntR r lab < 2 ^ 31 := by
  unfold cntR
  refine lt_of_le_of_lt (Finset.card_le_univ _) ?_
  rw [Fintype.card_prod, Fintype.card_fin]
  norm_num

/-- the reference's whole value from the normalised rows and the labels -/
theorem resV_eq : resV e l = fun _ => resultR (rowsOf e) (labsOf l) := by
  funext j
  rw [eq_ix0 j]
  unfold resV
  have hLS := loss_apply e l
  generalize lossV (posV l) (hingeV (distV (simV e)) (hardV (distV (simV e)) (negV l))) = LS at hLS ⊢
  have hc : cntV LS ix0 = BitVec.ofNat 32 (cntR (rowsOf e) (labsOf l)) := by
    rw [cntV_apply]
    unfold cntR
    refine congrArg (fun s : Finset (Fin 8192 × Fin 8192) => BitVec.ofNat 32 s.card) ?_
    exact Finset.filter_congr fun p _ => by rw [hLS]
  rw [finV_apply _ _ _ (cntR_lt _ _) hc, totV_apply]
  unfold resultR totalR
  have ht : (∑ a : Fin 8192, ∑ b : Fin 8192, LS (ix2 a b)) = ∑ a : Fin 8192, ∑ b : Fin 8192, lossR (rowsOf e) (labsOf l) a b :=
    Finset.sum_congr rfl fun a _ => Finset.sum_congr rfl fun b _ => hLS a b
  rw [ht]

end Cert.RefSide

end
-- ==== Proof.RefRun.lean ====
/-
  The reference program's run and its value: from any memory with zero counters every weakly fair execution of the
  reference terminates with its result buffer at the specification's `resultR` of the normalised rows and the labels,
  and its two arguments unchanged. The run leaves every buffer at the fold of the 69 host operations over the launch
  contents; the fold, read back in stretches, is the stage functions composed (`resV`); and `resV` is `resultR`.
-/
import proofs.«140858_j40114994544729_2_alg».proof.Proof.RefStages
import proofs.«140858_j40114994544729_2_alg».proof.Proof.RefMath3

noncomputable section

namespace Cert.RefSide

open Idealize.ShloMosaic Idealize.ShloMosaic.TcCoe Idealize.SL.Sem Cert.ReferenceIdeal

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = (fun _ => Cert.Spec.resultR (Cert.Spec.rowsOf (normE (m ((c.tc : Thread nD τ).loc main_arg0)))) (Cert.Spec.labsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v44).trans ((after_all (StableHlo.launchContents m c)).1.trans (resV_eq _ _)),
       (h c main_arg0).trans (after_all (StableHlo.launchContents m c)).2.1,
       (h c main_arg1).trans (after_all (StableHlo.launchContents m c)).2.2⟩)
    (Cert.ReferenceIdeal.ValueP.run_bare m ρ)

end Cert.RefSide

end
-- ==== Proof.lean ====
/-
  The certificate of the row-tiled triplet-loss kernel against its reference.

  Both programs normalise the rows of the embeddings (x / max(‖x‖, 1e-12)) by the same ten host operations. The
  kernel then works on 32 tiles of 256 anchor rows: per tile it forms the clamped cosine distances to all 8192 rows
  by one matrix product, takes each anchor's hardest negative (the minimum over the rows of another label, rows of
  the same label counted as 10^9), replaces every entry that is no (anchor, positive) pair by -10^9, applies the hinge
  max(d - hardest + 1, 0), and stores per anchor row the sum of the losses and the number of strictly positive ones;
  the host adds the 32·256 partial sums and counts and returns total / max(count, 1) when the count is positive, else 0.
  The reference forms the whole 8192 × 8192 matrix, applies the hinge first and the mask afterwards, counts the
  positive losses as 32-bit integers, and returns the same mean.

  On the extended reals the two agree: the hardest negative is never negative (distances are clamped at 0), so an entry
  sent to -10^9 before the hinge comes out as 0 — the reference's mask —; a sum of sums over tiles is the sum over
  all pairs; a sum of 0/1 values is the count, and the integer count (at most 2^26) is read back exactly. No step
  needs the inputs to be finite.

  The frames: the kernel's rows matrix is read through two windows of one array (a 256-row tile and the whole), each
  window holding half of the array's share; the region is entered and left through the segment form of the launch.
-/
import proofs.«140858_j40114994544729_2_alg».proof.Defs
import proofs.«140858_j40114994544729_2_alg».proof.Proof.Gen.Kernel
import proofs.«140858_j40114994544729_2_alg».proof.Proof.Gen.KernelIdeal
import proofs.«140858_j40114994544729_2_alg».proof.Proof.Gen.ReferenceIdeal
import proofs.«140858_j40114994544729_2_alg».proof.Proof.Gen.Pre_finite_inputs
import proofs.«140858_j40114994544729_2_alg».proof.Proof.BFrame
import proofs.«140858_j40114994544729_2_alg».proof.Proof.KFrame
import proofs.«140858_j40114994544729_2_alg».proof.Proof.KResult
import proofs.«140858_j40114994544729_2_alg».proof.Proof.Law
import proofs.«140858_j40114994544729_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_p : Cert.frame_Kernel := fun m ρ _ => Cert.Kernel.Fr.frame (F := Bits) m ρ
/-- So does the idealized kernel. -/
theorem frame_pi : Cert.frame_KernelIdeal := fun m ρ _ => Cert.KernelIdeal.Fr.frame (F := Ideal) m ρ
/-- The reference is a host program: its run with the result dropped. -/
theorem frame_ri : Cert.frame_ReferenceIdeal := fun m ρ _ =>
  (θ_run Cert.ReferenceIdeal.defs _ _).mono (fun _ h c => (h c).2) (Cert.RefSide.run m ρ)

/-- The ideal pass rewrote nothing. -/
theorem preserves : Cert.preserves_Kernel_KernelIdeal := trivial

/-- Both programs end at the specification of the normalised rows and the labels: the kernel in its row-by-row
    arrangement, the reference in its whole-matrix arrangement, equal by the law between the two. -/
theorem algebraic : Cert.algebraic_KernelIdeal_ReferenceIdeal := by
  intro m ρ m' ρ' _ hagree
  refine ⟨fun c => fun _ => Cert.Spec.resultK (Cert.Spec.rowsOf (Cert.KerSide.normE (m ((c.tc : Thread Cert.KernelIdeal.nD Cert.KernelIdeal.τ).loc Cert.KernelIdeal.main_arg0))))
      (Cert.Spec.labsOf (m ((c.tc : Thread Cert.KernelIdeal.nD Cert.KernelIdeal.τ).loc Cert.KernelIdeal.main_arg1))), ?_, ?_⟩
  · exact (θ_run Cert.KernelIdeal.defs _ _).mono (fun r h c => ⟨(h c).1.trans (Cert.KerSide.result_eq m c), (h c).2⟩)
      (Cert.KernelIdeal.Fr.run (F := Ideal) m ρ)
  · refine (θ_run Cert.ReferenceIdeal.defs _ _).mono (fun r h c => ⟨(h c).1.trans ?_, (h c).2⟩) (Cert.RefSide.run m' ρ')
    rw [(hagree c).1, (hagree c).2]
    beta_reduce
    rw [Cert.Spec.resultK_eq_resultR]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
